-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S3x33x33x33 : Shape := ⟨4, ![3, 33, 33, 33]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel
  bcast_S_S3x33x33x33 : S_.BroadcastsInDim S3x33x33x33 (![] : Fin 0 → Fin S3x33x33x33.rank)
  reducesTo_S3x33x33x33_S_d0_1_2_3 : S3x33x33x33.ReducesTo [0, 1, 2, 3] S_

variable [Facts]

def fn {F : FTy → Type} [FloatOps F] (main_arg0 : FVec F S8x3x1024x1024 .f32) (main_arg1 : FVec F S3x33x33x33 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_v4 : FVec F S3x33x33x33 .f32 := Host.absf main_arg1
  let main_cst_0 : FVec F S_ .f32 := constant S_ .f32 0x7F800000#32
  let main_v5 : FVec F S3x33x33x33 .f32 := broadcastInDim S3x33x33x33 ![] bcast_S_S3x33x33x33 main_cst_0
  let main_v6 : IVec S3x33x33x33 1 := cmpf .olt main_v4 main_v5
  let main_c_1 : IVec S_ 1 := constantI S_ 1 1#1
  let main_v7 : IVec S_ 1 := (fun x v => Host.reduce IntOp.andi x v reducesTo_S3x33x33x33_S_d0_1_2_3 h_S_) main_v6 main_c_1
  let main_v8 : IVec S_ 1 := andi main_v3 main_v7
  main_v8
-- ==== Kernel.lean ====
abbrev S8x3x1024x1024 : Shape := ⟨4, ![8, 3, 1024, 1024]⟩
abbrev S3x33x33x33 : Shape := ⟨4, ![3, 33, 33, 33]⟩
abbrev S99x1089 : Shape := ⟨2, ![99, 1089]⟩
abbrev S1x3x16x128 : Shape := ⟨4, ![1, 3, 16, 128]⟩
abbrev S1x1x16x128 : Shape := ⟨4, ![1, 1, 16, 128]⟩
abbrev S16x128 : Shape := ⟨2, ![16, 128]⟩
abbrev S1x2048 : Shape := ⟨2, ![1, 2048]⟩
abbrev S33x2048 : Shape := ⟨2, ![33, 2048]⟩
abbrev S33x1x2048 : Shape := ⟨3, ![33, 1, 2048]⟩
abbrev S1x33x2048 : Shape := ⟨3, ![1, 33, 2048]⟩
abbrev S33x33x2048 : Shape := ⟨3, ![33, 33, 2048]⟩
abbrev S1089x2048 : Shape := ⟨2, ![1089, 2048]⟩
abbrev S99x2048 : Shape := ⟨2, ![99, 2048]⟩
abbrev S3x33x2048 : Shape := ⟨3, ![3, 33, 2048]⟩
abbrev S3x2048 : Shape := ⟨2, ![3, 2048]⟩
abbrev S3x16x128 : Shape := ⟨3, ![3, 16, 128]⟩

abbrev nBuf : Space → Nat
  | .hbm => 5
  | .vmem => 5
  | .smem => 0
  | _ => 0

abbrev bufTy : (tb : Table) → Fin (tcTables nBuf tb) → BufTy
  | .hbm, ⟨0, _⟩ => ⟨S8x3x1024x1024, .f32⟩
  | .hbm, ⟨1, _⟩ => ⟨S3x33x33x33, .f32⟩
  | .hbm, ⟨2, _⟩ => ⟨S99x1089, .f32⟩
  | .hbm, ⟨3, _⟩ => ⟨S99x1089, .bf16⟩
  | .hbm, ⟨4, _⟩ => ⟨S8x3x1024x1024, .f32⟩
  | .local _ .vmem, ⟨0, _⟩ => ⟨S1x3x16x128, .f32⟩
  | .local _ .vmem, ⟨1, _⟩ => ⟨S1x3x16x128, .f32⟩
  | .local _ .vmem, ⟨2, _⟩ => ⟨S99x1089, .bf16⟩
  | .local _ .vmem, ⟨3, _⟩ => ⟨S1x3x16x128, .f32⟩
  | .local _ .vmem, ⟨4, _⟩ => ⟨S1x3x16x128, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 64, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x3x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S99x1089 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x3x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S3x33x33x33_S99x1089 : S3x33x33x33.ShapeCasts S99x1089
  bitsLt_bf16_f32 : FTy.bits .bf16 < FTy.bits .f32
  inb_S1x3x16x128_S1x1x16x128_0_0_0_0 : ∀ a, (![0, 0, 0, 0] : Fin 4 → Nat) a + S1x1x16x128.size a ≤ S1x3x16x128.size a
  h_S1x1x16x128 : 0 < S1x1x16x128.numel
  shapeCasts_S1x1x16x128_S16x128 : S1x1x16x128.ShapeCasts S16x128
  inb_S1x3x16x128_S1x1x16x128_0_1_0_0 : ∀ a, (![0, 1, 0, 0] : Fin 4 → Nat) a + S1x1x16x128.size a ≤ S1x3x16x128.size a
  inb_S1x3x16x128_S1x1x16x128_0_2_0_0 : ∀ a, (![0, 2, 0, 0] : Fin 4 → Nat) a + S1x1x16x128.size a ≤ S1x3x16x128.size a
  shapeCasts_S16x128_S1x2048 : S16x128.ShapeCasts S1x2048
  iota_S33x2048_d0_w32 : S33x2048.Iotas .tc 32 [0]
  broadcasts_S1x2048_S33x2048 : S1x2048.Broadcasts S33x2048
  shapeCasts_S1x2048_S1x2048 : S1x2048.ShapeCasts S1x2048
  shapeCasts_S33x2048_S33x1x2048 : S33x2048.ShapeCasts S33x1x2048
  shapeCasts_S33x2048_S1x33x2048 : S33x2048.ShapeCasts S1x33x2048
  broadcasts_S33x1x2048_S33x33x2048 : S33x1x2048.Broadcasts S33x33x2048
  broadcasts_S1x33x2048_S33x33x2048 : S1x33x2048.Broadcasts S33x33x2048
  shapeCasts_S33x33x2048_S1089x2048 : S33x33x2048.ShapeCasts S1089x2048
  inb_S99x1089_S99x1089_0_0 : ∀ a, (![0, 0] : Fin 2 → Nat) a + S99x1089.size a ≤ S99x1089.size a
  h_S99x1089 : 0 < S99x1089.numel
  shapeCasts_S99x1089_S99x1089 : S99x1089.ShapeCasts S99x1089
  shapeCasts_S99x2048_S3x33x2048 : S99x2048.ShapeCasts S3x33x2048
  broadcasts_S1x33x2048_S3x33x2048 : S1x33x2048.Broadcasts S3x33x2048
  reduces_S3x33x2048_S3x2048 : S3x33x2048.Reduces [1] S3x2048
  shapeCasts_S3x2048_S3x16x128 : S3x2048.ShapeCasts S3x16x128
  inb_S1x3x16x128_S1x3x16x128_0_0_0_0 : ∀ a, (![0, 0, 0, 0] : Fin 4 → Nat) a + S1x3x16x128.size a ≤ S1x3x16x128.size a
  h_S1x3x16x128 : 0 < S1x3x16x128.numel
  shapeCasts_S1x3x16x128_S3x16x128 : S1x3x16x128.ShapeCasts S3x16x128
  shapeCasts_S3x16x128_S1x3x16x128 : S3x16x128.ShapeCasts S1x3x16x128
  dot_S99x1089_S1089x2048_S99x2048_1_0_0_1_n_n_wf : DotDims.WF S99x1089 S1089x2048 S99x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x16x128.size a ≤ S8x3x1024x1024.size a
  hwx0_0 : ∀ i : grid0.Coords, EltTy.bits .f32 = 32 ∨ (Rect.block (s := S8x3x1024x1024) S1x3x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S99x1089.size a ≤ S99x1089.size a
  hwx0_1 : ∀ i : grid0.Coords, EltTy.bits .bf16 = 32 ∨ (Rect.block (s := S99x1089) S99x1089.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x16x128.size a ≤ S8x3x1024x1024.size a
  hwx0_2 : ∀ i : grid0.Coords, EltTy.bits .f32 = 32 ∨ (Rect.block (s := S8x3x1024x1024) S1x3x16x128.size (cc0_transform_2 i) (hinb0_2 i)).WholeWords (EltTy.packing .f32)

variable [Facts₀]

def dot_S99x1089_S1089x2048_S99x2048_1_0_0_1_n_n : DotDims S99x1089 S1089x2048 S99x2048 where
  lhsContracting := [1]
  rhsContracting := [0]
  lhsNonContracting := [0]
  rhsNonContracting := [1]
  lhsBatch := []
  rhsBatch := []
  wf := dot_S99x1089_S1089x2048_S99x2048_1_0_0_1_n_n_wf

abbrev win0_0 : Pipeline.Window sig grid0 :=
  Pipeline.Window.ofSpec (Memref.whole main_arg0) S1x3x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S99x1089.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x1024x1024 : Shape := ⟨4, ![8, 3, 1024, 1024]⟩
abbrev S3x33x33x33 : Shape := ⟨4, ![3, 33, 33, 33]⟩
abbrev S_ : Shape := ⟨0, ![]⟩
abbrev S8x1x1024x1024 : Shape := ⟨4, ![8, 1, 1024, 1024]⟩
abbrev S8x1024x1024 : Shape := ⟨3, ![8, 1024, 1024]⟩
abbrev S3x35937 : Shape := ⟨2, ![3, 35937]⟩
abbrev S8x1024x1024x1 : Shape := ⟨4, ![8, 1024, 1024, 1]⟩
abbrev S3x8x1024x1024 : Shape := ⟨4, ![3, 8, 1024, 1024]⟩
abbrev S1x8x1024x1024 : Shape := ⟨4, ![1, 8, 1024, 1024]⟩

abbrev nBuf : Space → Nat
  | .hbm => 266
  | .vmem => 0
  | .smem => 0
  | _ => 0

abbrev hbmTy0_0 (i : Nat) : BufTy := match i % 128 with
  | 0 => ⟨S8x3x1024x1024, .f32⟩
  | 1 => ⟨S3x33x33x33, .f32⟩
  | 2 => ⟨S_, .f32⟩
  | 3 => ⟨S8x3x1024x1024, .f32⟩
  | 4 => ⟨S8x3x1024x1024, .f32⟩
  | 5 => ⟨S_, .f32⟩
  | 6 => ⟨S8x3x1024x1024, .f32⟩
  | 7 => ⟨S8x3x1024x1024, .f32⟩
  | 8 => ⟨S_, .f32⟩
  | 9 => ⟨S8x3x1024x1024, .f32⟩
  | 10 => ⟨S8x3x1024x1024, .f32⟩
  | 11 => ⟨S_, .f32⟩
  | 12 => ⟨S8x3x1024x1024, .f32⟩
  | 13 => ⟨S8x3x1024x1024, .f32⟩
  | 14 => ⟨S_, .f32⟩
  | 15 => ⟨S8x3x1024x1024, .f32⟩
  | 16 => ⟨S8x3x1024x1024, .f32⟩
  | 17 => ⟨S_, .f32⟩
  | 18 => ⟨S_, .i32⟩
  | 19 => ⟨S_, .f32⟩
  | 20 => ⟨S8x3x1024x1024, .f32⟩
  | 21 => ⟨S8x3x1024x1024, .f32⟩
  | 22 => ⟨S_, .f32⟩
  | 23 => ⟨S8x3x1024x1024, .f32⟩
  | 24 => ⟨S8x3x1024x1024, .f32⟩
  | 25 => ⟨S8x1x1024x1024, .f32⟩
  | 26 => ⟨S8x1024x1024, .f32⟩
  | 27 => ⟨S8x1x1024x1024, .f32⟩
  | 28 => ⟨S8x1024x1024, .f32⟩
  | 29 => ⟨S8x1x1024x1024, .f32⟩
  | 30 => ⟨S8x1024x1024, .f32⟩
  | 31 => ⟨S8x1024x1024, .f32⟩
  | 32 => ⟨S8x1024x1024, .f32⟩
  | 33 => ⟨S8x1024x1024, .i32⟩
  | 34 => ⟨S_, .i32⟩
  | 35 => ⟨S8x1024x1024, .i32⟩
  | 36 => ⟨S8x1024x1024, .i32⟩
  | 37 => ⟨S_, .i32⟩
  | 38 => ⟨S8x1024x1024, .i32⟩
  | 39 => ⟨S8x1024x1024, .i32⟩
  | 40 => ⟨S8x1024x1024, .f32⟩
  | 41 => ⟨S8x1024x1024, .f32⟩
  | 42 => ⟨S8x1024x1024, .i32⟩
  | 43 => ⟨S_, .i32⟩
  | 44 => ⟨S8x1024x1024, .i32⟩
  | 45 => ⟨S8x1024x1024, .i32⟩
  | 46 => ⟨S_, .i32⟩
  | 47 => ⟨S8x1024x1024, .i32⟩
  | 48 => ⟨S8x1024x1024, .i32⟩
  | 49 => ⟨S8x1024x1024, .f32⟩
  | 50 => ⟨S8x1024x1024, .f32⟩
  | 51 => ⟨S8x1024x1024, .i32⟩
  | 52 => ⟨S_, .i32⟩
  | 53 => ⟨S8x1024x1024, .i32⟩
  | 54 => ⟨S8x1024x1024, .i32⟩
  | 55 => ⟨S_, .i32⟩
  | 56 => ⟨S8x1024x1024, .i32⟩
  | 57 => ⟨S8x1024x1024, .i32⟩
  | 58 => ⟨S3x35937, .f32⟩
  | 59 => ⟨S_, .i32⟩
  | 60 => ⟨S8x1024x1024, .i32⟩
  | 61 => ⟨S8x1024x1024, .i32⟩
  | 62 => ⟨S8x1024x1024, .i32⟩
  | 63 => ⟨S_, .i32⟩
  | 64 => ⟨S8x1024x1024, .i32⟩
  | 65 => ⟨S8x1024x1024, .i32⟩
  | 66 => ⟨S8x1024x1024, .i32⟩
  | 67 => ⟨S_, .i32⟩
  | 68 => ⟨S8x1024x1024, .i32⟩
  | 69 => ⟨S8x1024x1024, .i1⟩
  | 70 => ⟨S_, .i32⟩
  | 71 => ⟨S8x1024x1024, .i32⟩
  | 72 => ⟨S8x1024x1024, .i32⟩
  | 73 => ⟨S8x1024x1024, .i32⟩
  | 74 => ⟨S8x1024x1024x1, .i32⟩
  | 75 => ⟨S3x8x1024x1024, .f32⟩
  | 76 => ⟨S_, .f32⟩
  | 77 => ⟨S8x1024x1024, .f32⟩
  | 78 => ⟨S8x1024x1024, .f32⟩
  | 79 => ⟨S1x8x1024x1024, .f32⟩
  | 80 => ⟨S3x8x1024x1024, .f32⟩
  | 81 => ⟨S3x8x1024x1024, .f32⟩
  | 82 => ⟨S_, .i32⟩
  | 83 => ⟨S8x1024x1024, .i32⟩
  | 84 => ⟨S8x1024x1024, .i32⟩
  | 85 => ⟨S8x1024x1024, .i32⟩
  | 86 => ⟨S_, .i32⟩
  | 87 => ⟨S8x1024x1024, .i32⟩
  | 88 => ⟨S8x1024x1024, .i32⟩
  | 89 => ⟨S8x1024x1024, .i32⟩
  | 90 => ⟨S_, .i32⟩
  | 91 => ⟨S8x1024x1024, .i32⟩
  | 92 => ⟨S8x1024x1024, .i1⟩
  | 93 => ⟨S_, .i32⟩
  | 94 => ⟨S8x1024x1024, .i32⟩
  | 95 => ⟨S8x1024x1024, .i32⟩
  | 96 => ⟨S8x1024x1024, .i32⟩
  | 97 => ⟨S8x1024x1024x1, .i32⟩
  | 98 => ⟨S3x8x1024x1024, .f32⟩
  | 99 => ⟨S1x8x1024x1024, .f32⟩
  | 100 => ⟨S3x8x1024x1024, .f32⟩
  | 101 => ⟨S3x8x1024x1024, .f32⟩
  | 102 => ⟨S3x8x1024x1024, .f32⟩
  | 103 => ⟨S_, .i32⟩
  | 104 => ⟨S8x1024x1024, .i32⟩
  | 105 => ⟨S8x1024x1024, .i32⟩
  | 106 => ⟨S8x1024x1024, .i32⟩
  | 107 => ⟨S_, .i32⟩
  | 108 => ⟨S8x1024x1024, .i32⟩
  | 109 => ⟨S8x1024x1024, .i32⟩
  | 110 => ⟨S8x1024x1024, .i32⟩
  | 111 => ⟨S_, .i32⟩
  | 112 => ⟨S8x1024x1024, .i32⟩
  | 113 => ⟨S8x1024x1024, .i1⟩
  | 114 => ⟨S_, .i32⟩
  | 115 => ⟨S8x1024x1024, .i32⟩
  | 116 => ⟨S8x1024x1024, .i32⟩
  | 117 => ⟨S8x1024x1024, .i32⟩
  | 118 => ⟨S8x1024x1024x1, .i32⟩
  | 119 => ⟨S3x8x1024x1024, .f32⟩
  | 120 => ⟨S_, .f32⟩
  | 121 => ⟨S8x1024x1024, .f32⟩
  | 122 => ⟨S8x1024x1024, .f32⟩
  | 123 => ⟨S1x8x1024x1024, .f32⟩
  | 124 => ⟨S3x8x1024x1024, .f32⟩
  | 125 => ⟨S3x8x1024x1024, .f32⟩
  | 126 => ⟨S_, .i32⟩
  | 127 => ⟨S8x1024x1024, .i32⟩
  | _ => ⟨S8x3x1024x1024, .f32⟩

abbrev hbmTy0_1 (i : Nat) : BufTy := match i % 128 with
  | 0 => ⟨S8x1024x1024, .i32⟩
  | 1 => ⟨S8x1024x1024, .i32⟩
  | 2 => ⟨S_, .i32⟩
  | 3 => ⟨S8x1024x1024, .i32⟩
  | 4 => ⟨S8x1024x1024, .i32⟩
  | 5 => ⟨S8x1024x1024, .i32⟩
  | 6 => ⟨S_, .i32⟩
  | 7 => ⟨S8x1024x1024, .i32⟩
  | 8 => ⟨S8x1024x1024, .i1⟩
  | 9 => ⟨S_, .i32⟩
  | 10 => ⟨S8x1024x1024, .i32⟩
  | 11 => ⟨S8x1024x1024, .i32⟩
  | 12 => ⟨S8x1024x1024, .i32⟩
  | 13 => ⟨S8x1024x1024x1, .i32⟩
  | 14 => ⟨S3x8x1024x1024, .f32⟩
  | 15 => ⟨S1x8x1024x1024, .f32⟩
  | 16 => ⟨S3x8x1024x1024, .f32⟩
  | 17 => ⟨S3x8x1024x1024, .f32⟩
  | 18 => ⟨S3x8x1024x1024, .f32⟩
  | 19 => ⟨S_, .i32⟩
  | 20 => ⟨S8x1024x1024, .i32⟩
  | 21 => ⟨S8x1024x1024, .i32⟩
  | 22 => ⟨S8x1024x1024, .i32⟩
  | 23 => ⟨S_, .i32⟩
  | 24 => ⟨S8x1024x1024, .i32⟩
  | 25 => ⟨S8x1024x1024, .i32⟩
  | 26 => ⟨S8x1024x1024, .i32⟩
  | 27 => ⟨S_, .i32⟩
  | 28 => ⟨S8x1024x1024, .i32⟩
  | 29 => ⟨S8x1024x1024, .i1⟩
  | 30 => ⟨S_, .i32⟩
  | 31 => ⟨S8x1024x1024, .i32⟩
  | 32 => ⟨S8x1024x1024, .i32⟩
  | 33 => ⟨S8x1024x1024, .i32⟩
  | 34 => ⟨S8x1024x1024x1, .i32⟩
  | 35 => ⟨S3x8x1024x1024, .f32⟩
  | 36 => ⟨S_, .f32⟩
  | 37 => ⟨S8x1024x1024, .f32⟩
  | 38 => ⟨S8x1024x1024, .f32⟩
  | 39 => ⟨S1x8x1024x1024, .f32⟩
  | 40 => ⟨S3x8x1024x1024, .f32⟩
  | 41 => ⟨S3x8x1024x1024, .f32⟩
  | 42 => ⟨S_, .i32⟩
  | 43 => ⟨S8x1024x1024, .i32⟩
  | 44 => ⟨S8x1024x1024, .i32⟩
  | 45 => ⟨S8x1024x1024, .i32⟩
  | 46 => ⟨S_, .i32⟩
  | 47 => ⟨S8x1024x1024, .i32⟩
  | 48 => ⟨S8x1024x1024, .i32⟩
  | 49 => ⟨S8x1024x1024, .i32⟩
  | 50 => ⟨S_, .i32⟩
  | 51 => ⟨S8x1024x1024, .i32⟩
  | 52 => ⟨S8x1024x1024, .i1⟩
  | 53 => ⟨S_, .i32⟩
  | 54 => ⟨S8x1024x1024, .i32⟩
  | 55 => ⟨S8x1024x1024, .i32⟩
  | 56 => ⟨S8x1024x1024, .i32⟩
  | 57 => ⟨S8x1024x1024x1, .i32⟩
  | 58 => ⟨S3x8x1024x1024, .f32⟩
  | 59 => ⟨S1x8x1024x1024, .f32⟩
  | 60 => ⟨S3x8x1024x1024, .f32⟩
  | 61 => ⟨S3x8x1024x1024, .f32⟩
  | 62 => ⟨S3x8x1024x1024, .f32⟩
  | 63 => ⟨S_, .i32⟩
  | 64 => ⟨S8x1024x1024, .i32⟩
  | 65 => ⟨S8x1024x1024, .i32⟩
  | 66 => ⟨S8x1024x1024, .i32⟩
  | 67 => ⟨S_, .i32⟩
  | 68 => ⟨S8x1024x1024, .i32⟩
  | 69 => ⟨S8x1024x1024, .i32⟩
  | 70 => ⟨S8x1024x1024, .i32⟩
  | 71 => ⟨S_, .i32⟩
  | 72 => ⟨S8x1024x1024, .i32⟩
  | 73 => ⟨S8x1024x1024, .i1⟩
  | 74 => ⟨S_, .i32⟩
  | 75 => ⟨S8x1024x1024, .i32⟩
  | 76 => ⟨S8x1024x1024, .i32⟩
  | 77 => ⟨S8x1024x1024, .i32⟩
  | 78 => ⟨S8x1024x1024x1, .i32⟩
  | 79 => ⟨S3x8x1024x1024, .f32⟩
  | 80 => ⟨S_, .f32⟩
  | 81 => ⟨S8x1024x1024, .f32⟩
  | 82 => ⟨S8x1024x1024, .f32⟩
  | 83 => ⟨S1x8x1024x1024, .f32⟩
  | 84 => ⟨S3x8x1024x1024, .f32⟩
  | 85 => ⟨S3x8x1024x1024, .f32⟩
  | 86 => ⟨S_, .i32⟩
  | 87 => ⟨S8x1024x1024, .i32⟩
  | 88 => ⟨S8x1024x1024, .i32⟩
  | 89 => ⟨S8x1024x1024, .i32⟩
  | 90 => ⟨S_, .i32⟩
  | 91 => ⟨S8x1024x1024, .i32⟩
  | 92 => ⟨S8x1024x1024, .i32⟩
  | 93 => ⟨S8x1024x1024, .i32⟩
  | 94 => ⟨S_, .i32⟩
  | 95 => ⟨S8x1024x1024, .i32⟩
  | 96 => ⟨S8x1024x1024, .i1⟩
  | 97 => ⟨S_, .i32⟩
  | 98 => ⟨S8x1024x1024, .i32⟩
  | 99 => ⟨S8x1024x1024, .i32⟩
  | 100 => ⟨S8x1024x1024, .i32⟩
  | 101 => ⟨S8x1024x1024x1, .i32⟩
  | 102 => ⟨S3x8x1024x1024, .f32⟩
  | 103 => ⟨S1x8x1024x1024, .f32⟩
  | 104 => ⟨S3x8x1024x1024, .f32⟩
  | 105 => ⟨S3x8x1024x1024, .f32⟩
  | 106 => ⟨S3x8x1024x1024, .f32⟩
  | 107 => ⟨S_, .f32⟩
  | 108 => ⟨S8x1024x1024, .f32⟩
  | 109 => ⟨S8x1024x1024, .f32⟩
  | 110 => ⟨S1x8x1024x1024, .f32⟩
  | 111 => ⟨S3x8x1024x1024, .f32⟩
  | 112 => ⟨S3x8x1024x1024, .f32⟩
  | 113 => ⟨S1x8x1024x1024, .f32⟩
  | 114 => ⟨S3x8x1024x1024, .f32⟩
  | 115 => ⟨S3x8x1024x1024, .f32⟩
  | 116 => ⟨S3x8x1024x1024, .f32⟩
  | 117 => ⟨S_, .f32⟩
  | 118 => ⟨S8x1024x1024, .f32⟩
  | 119 => ⟨S8x1024x1024, .f32⟩
  | 120 => ⟨S1x8x1024x1024, .f32⟩
  | 121 => ⟨S3x8x1024x1024, .f32⟩
  | 122 => ⟨S3x8x1024x1024, .f32⟩
  | 123 => ⟨S_, .f32⟩
  | 124 => ⟨S8x1024x1024, .f32⟩
  | 125 => ⟨S8x1024x1024, .f32⟩
  | 126 => ⟨S1x8x1024x1024, .f32⟩
  | 127 => ⟨S3x8x1024x1024, .f32⟩
  | _ => ⟨S8x3x1024x1024, .f32⟩

abbrev hbmTy0_2 (i : Nat) : BufTy := match i % 128 with
  | 0 => ⟨S3x8x1024x1024, .f32⟩
  | 1 => ⟨S1x8x1024x1024, .f32⟩
  | 2 => ⟨S3x8x1024x1024, .f32⟩
  | 3 => ⟨S3x8x1024x1024, .f32⟩
  | 4 => ⟨S3x8x1024x1024, .f32⟩
  | 5 => ⟨S1x8x1024x1024, .f32⟩
  | 6 => ⟨S3x8x1024x1024, .f32⟩
  | 7 => ⟨S3x8x1024x1024, .f32⟩
  | 8 => ⟨S3x8x1024x1024, .f32⟩
  | 9 => ⟨S8x3x1024x1024, .f32⟩
  | _ => ⟨S8x3x1024x1024, .f32⟩

abbrev hbmTy (i : Nat) : BufTy := match i / 128 with
  | 0 => hbmTy0_0 i
  | 1 => hbmTy0_1 i
  | 2 => hbmTy0_2 i
  | _ => ⟨S8x3x1024x1024, .f32⟩

abbrev bufTy : (tb : Table) → Fin (tcTables nBuf tb) → BufTy
  | .hbm, ⟨i, _⟩ => hbmTy i
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_c_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_12 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_13 : Ref sig .tc := ⟨.hbm, 67, rfl⟩
abbrev main_v45 : Ref sig .tc := ⟨.hbm, 68, rfl⟩
abbrev main_v46 : Ref sig .tc := ⟨.hbm, 69, rfl⟩
abbrev main_c_14 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_16 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_18 : Ref sig .tc := ⟨.hbm, 90, rfl⟩
abbrev main_v63 : Ref sig .tc := ⟨.hbm, 91, rfl⟩
abbrev main_v64 : Ref sig .tc := ⟨.hbm, 92, rfl⟩
abbrev main_c_19 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_20 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_21 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_22 : Ref sig .tc := ⟨.hbm, 111, rfl⟩
abbrev main_v80 : Ref sig .tc := ⟨.hbm, 112, rfl⟩
abbrev main_v81 : Ref sig .tc := ⟨.hbm, 113, rfl⟩
abbrev main_c_23 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_25 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_26 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_27 : Ref sig .tc := ⟨.hbm, 134, rfl⟩
abbrev main_v98 : Ref sig .tc := ⟨.hbm, 135, rfl⟩
abbrev main_v99 : Ref sig .tc := ⟨.hbm, 136, rfl⟩
abbrev main_c_28 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_29 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_30 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_c_31 : Ref sig .tc := ⟨.hbm, 155, rfl⟩
abbrev main_v115 : Ref sig .tc := ⟨.hbm, 156, rfl⟩
abbrev main_v116 : Ref sig .tc := ⟨.hbm, 157, rfl⟩
abbrev main_c_32 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_33 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_34 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_c_35 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_36 : Ref sig .tc := ⟨.hbm, 178, rfl⟩
abbrev main_v133 : Ref sig .tc := ⟨.hbm, 179, rfl⟩
abbrev main_v134 : Ref sig .tc := ⟨.hbm, 180, rfl⟩
abbrev main_c_37 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_c_38 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_c_39 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_c_40 : Ref sig .tc := ⟨.hbm, 199, rfl⟩
abbrev main_v150 : Ref sig .tc := ⟨.hbm, 200, rfl⟩
abbrev main_v151 : Ref sig .tc := ⟨.hbm, 201, rfl⟩
abbrev main_c_41 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_42 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_c_43 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_c_44 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_c_45 : Ref sig .tc := ⟨.hbm, 222, rfl⟩
abbrev main_v168 : Ref sig .tc := ⟨.hbm, 223, rfl⟩
abbrev main_v169 : Ref sig .tc := ⟨.hbm, 224, rfl⟩
abbrev main_c_46 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_47 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_cst_48 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_cst_49 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩

abbrev nD : Nat := 1
abbrev τ : Topo := Topo.v7x

variable {F : FTy → Type} [FloatOps F]

class Facts₀ : Prop where
  bcast_S_S8x3x1024x1024 : S_.BroadcastsInDim S8x3x1024x1024 (![] : Fin 0 → Fin S8x3x1024x1024.rank)
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  shapeCasts_S3x33x33x33_S3x35937 : S3x33x33x33.ShapeCasts S3x35937
  bcast_S8x1024x1024_S8x1024x1024x1_0_1_2 : S8x1024x1024.BroadcastsInDim S8x1024x1024x1 (![0, 1, 2] : Fin 3 → Fin S8x1024x1024x1.rank)
  bcast_S8x1024x1024_S1x8x1024x1024_1_2_3 : S8x1024x1024.BroadcastsInDim S1x8x1024x1024 (![1, 2, 3] : Fin 3 → Fin S1x8x1024x1024.rank)
  bcast_S1x8x1024x1024_S3x8x1024x1024_0_1_2_3 : S1x8x1024x1024.BroadcastsInDim S3x8x1024x1024 (![0, 1, 2, 3] : Fin 4 → Fin S3x8x1024x1024.rank)
  transposes_S3x8x1024x1024_S8x3x1024x1024_1_0_2_3 : S3x8x1024x1024.Transposes [1, 0, 2, 3] S8x3x1024x1024
  gather_S3x35937_S8x1024x1024x1_S3x8x1024x1024_0_1_n_n_1_3_31_wf : GatherDims.WF S3x35937 S8x1024x1024x1 S3x8x1024x1024 [0] [1] [] [1] [] 3 ![3, 1]

variable [Facts₀]

def gather_S3x35937_S8x1024x1024x1_S3x8x1024x1024_0_1_n_n_1_3_31 : GatherDims S3x35937 S8x1024x1024x1 S3x8x1024x1024 where
  offsetDims := [0]
  collapsedSliceDims := [1]
  operandBatchingDims := []
  startIndicesBatchingDims := []
  startIndexMap := [1]
  indexVectorDim := 3
  sliceSizes := ![3, 1]
  wf := gather_S3x35937_S8x1024x1024x1_S3x8x1024x1024_0_1_n_n_1_3_31_wf

class Facts : Prop extends Facts₀ where

variable [Facts]
-- ==== Proof.LibGrid33.lean ====
/-
  A general lemma file, free of any program: the cell of a 33-point grid that a clipped coordinate falls in.

  A coordinate `t` (any extended real) is clipped to `[0, 32]`; the clipped value is then a real number, its floor an
  integer between 0 and 32, and the conversion of that floor to a 32-bit word is the word of that integer: no clamp
  and no wrap occurs. The upper neighbour `min (n + 1) 32` is computed on words by an addition and a signed
  minimum, again without wrap. The fractional part and its complement to one are real numbers. The file also
  records the word-level facts used to address a 33 × 33 × 33 table stored flat: equality of two small words is
  equality of the numbers, the flat index `(a · 33 + b) · 33 + c` is computed on words without wrap, it is not
  negative as a signed word, and reading it back as a signed integer returns it.
-/
import Idealize.ShloMosaic.PureOps.Ideal
import Idealize.ShloMosaic.PureOps.Ideal.Laws

noncomputable section

namespace Idealize.ShloMosaic.Grid33

open Idealize.ShloMosaic

/-! ## The three float patterns -/

theorem ofBits_one : Ideal.ofBits .f32 0x3F800000#32 = ((1 : ℝ) : EReal) := by
  simp [Ideal.ofBits, Ideal.ieee, -EReal.coe_mul]; norm_num

theorem ofBits_32 : Ideal.ofBits .f32 0x42000000#32 = ((32 : ℝ) : EReal) := by
  simp [Ideal.ofBits, Ideal.ieee, -EReal.coe_mul]; norm_num

/-! ## The clipped coordinate, its cell and its weights -/

/-- The coordinate clipped to `[0, 32]`. -/
def clip (t : EReal) : EReal := min (Ideal.ofBits .f32 0x42000000#32) (max (Ideal.ofBits .f32 0x00000000#32) t)

/-- The word of the lower grid point: the floor converted to a signed 32-bit integer. -/
def lo (u : EReal) : BitVec 32 := Ideal.fptosi 32 (Ideal.liftRound Int.floor u)

/-- The word of the upper grid point: one more, but at most 32 (a signed minimum). -/
def hi (u : EReal) : BitVec 32 := IntOp.minsi (IntOp.addi (lo u) 1#32) 32#32

/-- The weight of the upper grid point: the fractional part. -/
def frac (u : EReal) : EReal := u - Ideal.liftRound Int.floor u

/-- The weight of the lower grid point: one minus the fractional part. -/
def cofrac (u : EReal) : EReal := Ideal.ofBits .f32 0x3F800000#32 - frac u

/-- The lower grid point as a position of the 33-point axis. -/
def cell (u : EReal) : Fin 33 := ⟨min (lo u).toNat 32, by omega⟩

/-- The upper grid point as a position of the 33-point axis. -/
def cellUp (u : EReal) : Fin 33 := ⟨min ((cell u).val + 1) 32, by omega⟩

/-- The clipped coordinate is a real number between 0 and 32, whatever the coordinate was. -/
theorem clip_mem (t : EReal) : ∃ r : ℝ, clip t = (r : EReal) ∧ 0 ≤ r ∧ r ≤ 32 := by
  unfold clip
  rw [ofBits_32, Ideal.ofBits_zero_f32]
  have h0 : (0 : EReal) ≤ min ((32 : ℝ) : EReal) (max 0 t) :=
    le_min (by exact_mod_cast (by norm_num : (0 : ℝ) ≤ 32)) (le_max_left _ _)
  have h1 : min ((32 : ℝ) : EReal) (max 0 t) ≤ ((32 : ℝ) : EReal) := min_le_left _ _
  generalize min ((32 : ℝ) : EReal) (max 0 t) = u at h0 h1
  induction u using EReal.rec with
  | bot => simp at h0
  | top => simp at h1
  | coe r => exact ⟨r, rfl, by exact_mod_cast h0, by exact_mod_cast h1⟩

/-- At a real number of `[0, 32]` the lower word is the word of the floor, a number at most 32. -/
theorem lo_coe {r : ℝ} (h0 : 0 ≤ r) (h1 : r ≤ 32) : lo (r : EReal) = BitVec.ofNat 32 ⌊r⌋.toNat ∧ ⌊r⌋.toNat ≤ 32 := by
  have hz0 : 0 ≤ ⌊r⌋ := Int.floor_nonneg.mpr h0
  have hz1 : ⌊r⌋ ≤ 32 := by
    have : ((⌊r⌋ : ℤ) : ℝ) ≤ 32 := (Int.floor_le r).trans h1
    exact_mod_cast this
  refine ⟨?_, by omega⟩
  unfold lo
  rw [Ideal.liftRound_coe, Ideal.fptosi, Ideal.toIntClamped_coe]
  have hpos : (0 : ℝ) ≤ ((⌊r⌋ : ℤ) : ℝ) := by exact_mod_cast hz0
  rw [if_pos hpos, Int.floor_intCast]
  have e : max (-((2 ^ (32 - 1) : ℕ) : ℤ)) (min (((2 ^ (32 - 1) : ℕ) : ℤ) - 1) ⌊r⌋) = ⌊r⌋ := by
    have hp : ((2 ^ (32 - 1) : ℕ) : ℤ) = 2147483648 := by norm_num
    rw [hp, min_eq_right (by omega), max_eq_right (by omega)]
  rw [e]
  conv_lhs => rw [← Int.toNat_of_nonneg hz0]
  exact BitVec.ofInt_natCast 32 _

theorem lo_clip (t : EReal) : lo (clip t) = BitVec.ofNat 32 (cell (clip t)).val := by
  obtain ⟨r, hr, h0, h1⟩ := clip_mem t
  obtain ⟨e, hn⟩ := lo_coe h0 h1
  show lo (clip t) = BitVec.ofNat 32 (min (lo (clip t)).toNat 32)
  rw [hr, e, BitVec.toNat_ofNat, Nat.mod_eq_of_lt (lt_of_le_of_lt hn (by norm_num)), min_eq_left hn]

/-- The upper word of a small number, computed without wrap. -/
theorem minsi_succ (n : ℕ) (h : n ≤ 32) :
    IntOp.minsi (IntOp.addi (BitVec.ofNat 32 n) 1#32) 32#32 = BitVec.ofNat 32 (min (n + 1) 32) := by
  interval_cases n <;> rfl

theorem hi_clip (t : EReal) : hi (clip t) = BitVec.ofNat 32 (cellUp (clip t)).val := by
  unfold hi
  rw [lo_clip]
  exact minsi_succ _ (Nat.lt_succ_iff.mp (cell (clip t)).isLt)

/-- The two weights of a clipped coordinate are real numbers that add to one. -/
theorem frac_clip (t : EReal) : ∃ w : ℝ, frac (clip t) = (w : EReal) ∧ cofrac (clip t) = ((1 - w : ℝ) : EReal) := by
  obtain ⟨r, hr, -, -⟩ := clip_mem t
  refine ⟨r - ((⌊r⌋ : ℤ) : ℝ), ?_, ?_⟩
  · unfold frac; rw [hr, Ideal.liftRound_coe, ← EReal.coe_sub]
  · unfold cofrac frac; rw [hr, Ideal.liftRound_coe, ofBits_one, ← EReal.coe_sub, ← EReal.coe_sub]

/-- The fractional part as a real number. -/
def fracR (u : EReal) : ℝ := (frac u).toReal

theorem frac_clip_coe (t : EReal) : frac (clip t) = ((fracR (clip t) : ℝ) : EReal) := by
  obtain ⟨w, h1, -⟩ := frac_clip t
  unfold fracR; rw [h1, EReal.toReal_coe]

theorem cofrac_clip_coe (t : EReal) : cofrac (clip t) = ((1 - fracR (clip t) : ℝ) : EReal) := by
  obtain ⟨w, h1, h2⟩ := frac_clip t
  unfold fracR; rw [h2, h1, EReal.toReal_coe]

/-- The row of weights a clipped coordinate puts on the 33 grid points: the lower point's weight at the lower point,
    the upper point's weight at the upper point (added at the same position when the two coincide), zero elsewhere. -/
def row (u : EReal) (n : Fin 33) : EReal := (if n = cell u then cofrac u else 0) + (if n = cellUp u then frac u else 0)

/-! ## Small words -/

/-- Two numbers below 33 have equal words exactly when they are equal. -/
theorem cmpi_eq_ofNat (k n : ℕ) (hk : k < 33) (hn : n < 33) :
    IntOp.cmpi .eq (BitVec.ofNat 32 k) (BitVec.ofNat 32 n) = if k = n then 1#1 else 0#1 := by
  unfold IntOp.cmpi
  by_cases h : k = n
  · subst h; simp
  · have hne : BitVec.ofNat 32 k ≠ BitVec.ofNat 32 n := fun e => h (by
      have := congrArg BitVec.toNat e
      rw [BitVec.toNat_ofNat, BitVec.toNat_ofNat, Nat.mod_eq_of_lt (lt_trans hk (by norm_num)),
        Nat.mod_eq_of_lt (lt_trans hn (by norm_num))] at this
      exact this)
    have hb : (BitVec.ofNat 32 k == BitVec.ofNat 32 n) = false := beq_eq_false_iff_ne.mpr hne
    rw [if_neg h]
    show BitVec.ofBool (BitVec.ofNat 32 k == BitVec.ofNat 32 n) = 0#1
    rw [hb]; rfl

/-- A value selected by the equality of two small words is selected by the equality of the numbers. -/
theorem select_cmpi_eq (n a : Fin 33) (x y : EReal) :
    Scalar.select (IntOp.cmpi .eq (BitVec.ofNat 32 n.val) (BitVec.ofNat 32 a.val)) x y = if n = a then x else y := by
  rw [cmpi_eq_ofNat _ _ n.isLt a.isLt]
  by_cases h : n = a
  · subst h; simp [Scalar.select]
  · have hv : ¬ n.val = a.val := fun e => h (Fin.ext e)
    simp [Scalar.select, h, hv]

/-- The flat index of position `(a, b, c)` of a 33 × 33 × 33 table, computed on words. -/
theorem flat_word (a b c : ℕ) :
    IntOp.addi (IntOp.muli (IntOp.addi (IntOp.muli (BitVec.ofNat 32 a) 33#32) (BitVec.ofNat 32 b)) 33#32) (BitVec.ofNat 32 c)
      = BitVec.ofNat 32 ((a * 33 + b) * 33 + c) := by
  unfold IntOp.addi IntOp.muli
  rw [show (33#32 : BitVec 32) = BitVec.ofNat 32 33 from rfl, BitVec.ofNat_mul_ofNat, BitVec.ofNat_add_ofNat,
    BitVec.ofNat_mul_ofNat, BitVec.ofNat_add_ofNat]

/-- A number below 2³¹ read back from its word as a signed integer. -/
theorem toInt_ofNat_small (N : ℕ) (h : N < 2147483648) : (BitVec.ofNat 32 N).toInt = (N : ℤ) := by
  have hN : (BitVec.ofNat 32 N).toNat = N := by
    rw [BitVec.toNat_ofNat]; exact Nat.mod_eq_of_lt (lt_trans h (by norm_num))
  rw [BitVec.toInt_eq_toNat_of_lt (by rw [hN]; norm_num; omega), hN]

/-- The word of a small number is not negative as a signed integer. -/
theorem slt_zero_ofNat_small (N : ℕ) (h : N < 2147483648) : IntOp.cmpi .slt (BitVec.ofNat 32 N) 0#32 = 0#1 := by
  unfold IntOp.cmpi
  have : ¬ (BitVec.ofNat 32 N).slt 0#32 = true := by
    rw [BitVec.slt_iff_toInt_lt, toInt_ofNat_small N h]
    simp
  simp [this]

/-- An index below the table's length, after the "add the length if negative" normalisation and the clamp to the last
    position, is itself. -/
theorem wrap_read (N : ℕ) (hN : N < 35937) :
    min (Scalar.select (IntOp.cmpi .slt (BitVec.ofNat 32 N) 0#32) (IntOp.addi (BitVec.ofNat 32 N) 35937#32)
      (BitVec.ofNat 32 N)).toInt.toNat 35936 = N := by
  have hs : N < 2147483648 := lt_trans hN (by norm_num)
  rw [slt_zero_ofNat_small N hs]
  show min (BitVec.ofNat 32 N).toInt.toNat 35936 = N
  rw [toInt_ofNat_small N hs, Int.toNat_natCast]
  omega

/-- The signed word 32 converted to a float is the float 32. -/
theorem sitofp_32 : ((((32#32 : BitVec 32).toInt : ℤ) : ℝ) : EReal) = Ideal.ofBits .f32 0x42000000#32 := by
  have h : (32#32 : BitVec 32).toInt = 32 := by decide
  rw [ofBits_32, h]; norm_num

end Idealize.ShloMosaic.Grid33
-- ==== Proof.Spec.lean ====
/-
  The common value of the two programs, as one function of the argument arrays.

  A pixel `(b, h, w)` of the image `x : [8, 3, 1024, 1024]` has three colour values. Each is mapped to a grid coordinate
  `((v - 1/2) · 2 + 1) · 1/2 · 32` clipped to `[0, 32]`: red indexes the last axis of the table
  `L : [3, 33, 33, 33]`, green the middle one, blue the first. Output channel `c` at the pixel is the trilinear
  interpolation of `L[c]` at the three coordinates: along each axis the two neighbouring grid points (the upper one
  capped at 32) weighted by one minus the fractional part and by the fractional part, combined innermost axis first.
-/
import proofs.«169817_j28467043237891_2_alg».proof.Proof.LibGrid33
import Idealize.ShloMosaic.Lib.ValueIdx

noncomputable section

namespace Cert.Interp

open Idealize.ShloMosaic Idealize.ShloMosaic.ValueIdx Idealize.ShloMosaic.Grid33

abbrev SX : Shape := ⟨4, ![8, 3, 1024, 1024]⟩
abbrev SL : Shape := ⟨4, ![3, 33, 33, 33]⟩

/-- The grid coordinate of a colour value before clipping. -/
def pre (v : EReal) : EReal :=
  (((v - Ideal.ofBits .f32 0x3F000000#32) * Ideal.ofBits .f32 0x40000000#32 + Ideal.ofBits .f32 0x3F800000#32)
    * Ideal.ofBits .f32 0x3F000000#32) * Ideal.ofBits .f32 0x42000000#32

/-- The grid coordinate of a colour value, clipped to `[0, 32]`. -/
def coord (v : EReal) : EReal := clip (pre v)

/-- The eight-corner interpolation of a 33 × 33 × 33 table `T` at clipped coordinates `uk` (last axis), `uj`
    (middle axis) and `ui` (first axis). -/
def corners (T : Fin 33 → Fin 33 → Fin 33 → EReal) (uk uj ui : EReal) : EReal :=
  ((T (cell ui) (cell uj) (cell uk) * cofrac uk + T (cell ui) (cell uj) (cellUp uk) * frac uk) * cofrac uj
      + (T (cell ui) (cellUp uj) (cell uk) * cofrac uk + T (cell ui) (cellUp uj) (cellUp uk) * frac uk) * frac uj) * cofrac ui
    + ((T (cellUp ui) (cell uj) (cell uk) * cofrac uk + T (cellUp ui) (cell uj) (cellUp uk) * frac uk) * cofrac uj
      + (T (cellUp ui) (cellUp uj) (cell uk) * cofrac uk + T (cellUp ui) (cellUp uj) (cellUp uk) * frac uk) * frac uj) * frac ui

/-- The result array: channel `c` of pixel `(b, h, w)`. -/
def G (x : SX.Idx → EReal) (L : SL.Idx → EReal) : SX.Idx → EReal := fun i =>
  corners (fun p q r => L (ix4 (i 1) p q r))
    (coord (x (ix4 (i 0) (0 : Fin 3) (i 2) (i 3)))) (coord (x (ix4 (i 0) (1 : Fin 3) (i 2) (i 3))))
    (coord (x (ix4 (i 0) (2 : Fin 3) (i 2) (i 3))))

theorem G_apply (x : SX.Idx → EReal) (L : SL.Idx → EReal) (b : Fin 8) (c : Fin 3) (h w : Fin 1024) :
    G x L (ix4 b c h w) = corners (fun p q r => L (ix4 c p q r))
      (coord (x (ix4 b (0 : Fin 3) h w))) (coord (x (ix4 b (1 : Fin 3) h w))) (coord (x (ix4 b (2 : Fin 3) h w))) := rfl

end Cert.Interp

end
-- ==== Proof.LibTiles.lean ====
/-
  A general lemma file, free of any program: shape casts that split or merge one axis, and the cast that drops two leading unit axes,
  each read at an index given by coordinates; and a sum over a merged axis as a double sum.

  A cast keeps the row-major order, so merging axes `[a, b]` into one of length `a · b` sends `(i, j)` to
  `i · b + j`, and splitting sends `q` to `(q / b, q % b)`. The merged length is a separate parameter `n` with
  the hypothesis `n = a · b`, so that the statements apply to shapes written with literal extents.
-/
import Idealize.ShloMosaic.Lib.Pipeline.Value
import Idealize.ShloMosaic.Lib.ValueIdx
import Mathlib.Algebra.BigOperators.Fin

namespace Idealize.ShloMosaic.ValueIdx

open Idealize.ShloMosaic

variable {α : Type}

/-- The quotient of a position of a merged axis is a position of the outer axis. -/
theorem div_lt_of_lt_mul' {a b n p : ℕ} (hn : n = a * b) (hp : p < n) : p / b < a :=
  Nat.div_lt_of_lt_mul (by rw [Nat.mul_comm]; exact hn ▸ hp)

/-- The remainder of a position of a merged axis is a position of the inner axis. -/
theorem mod_lt_of_lt_mul' {a b n p : ℕ} (hn : n = a * b) (hp : p < n) : p % b < b :=
  Nat.mod_lt _ (Nat.pos_of_ne_zero fun h0 => by subst h0; rw [Nat.mul_zero] at hn; omega)

/-- A merged position from its two coordinates. -/
theorem mul_add_lt {a b n i j : ℕ} (hn : n = a * b) (hi : i < a) (hj : j < b) : i * b + j < n := by
  subst hn
  calc i * b + j < i * b + b := by omega
    _ = (i + 1) * b := by ring
    _ ≤ a * b := Nat.mul_le_mul_right b hi

/-- An `[a, b]` array cast to one row `[1, n]`, `n = a · b`, reads at lane `p` the operand at `(p / b, p % b)`. -/
theorem shapeCast_ab_1n_apply {a b n : ℕ} (hn : n = a * b) (x : (⟨2, ![a, b]⟩ : Shape).Idx → α)
    (h : (⟨2, ![a, b]⟩ : Shape).ShapeCasts ⟨2, ![1, n]⟩) (u : Fin 1) (p : Fin n) :
    shapeCast ⟨2, ![1, n]⟩ x h (ix2 u p)
      = x (ix2 ⟨p.val / b, div_lt_of_lt_mul' hn p.isLt⟩ ⟨p.val % b, mod_lt_of_lt_mul' hn p.isLt⟩) :=
  shapeCast_apply x h _ _ (by
    have hu : u.val = 0 := by omega
    rw [Shape.rowMajor_val_two, Shape.rowMajor_val_two]
    show p.val / b * b + p.val % b = u.val * n + p.val
    rw [hu, Nat.zero_mul, Nat.zero_add]
    exact Nat.div_add_mod' p.val b)

/-- An `[a, b, c]` array cast to `[n, c]`, `n = a · b`, reads at `(q, p)` the operand at `(q / b, q % b, p)`. -/
theorem shapeCast_abc_nc_apply {a b c n : ℕ} (hn : n = a * b) (x : (⟨3, ![a, b, c]⟩ : Shape).Idx → α)
    (h : (⟨3, ![a, b, c]⟩ : Shape).ShapeCasts ⟨2, ![n, c]⟩) (q : Fin n) (p : Fin c) :
    shapeCast ⟨2, ![n, c]⟩ x h (ix2 q p)
      = x (ix3 ⟨q.val / b, div_lt_of_lt_mul' hn q.isLt⟩ ⟨q.val % b, mod_lt_of_lt_mul' hn q.isLt⟩ p) :=
  shapeCast_apply x h _ _ (by
    rw [Shape.rowMajor_val_three, Shape.rowMajor_val_two]
    show (q.val / b * b + q.val % b) * c + p.val = q.val * c + p.val
    rw [Nat.div_add_mod' q.val b])

/-- An `[n, c]` array cast to `[a, b, c]`, `n = a · b`, reads at `(i, j, p)` the operand at `(i · b + j, p)`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (i : Fin a) (j : Fin b) (p : Fin c) :
    shapeCast ⟨3, ![a, b, c]⟩ x h (ix3 i j p) = x (ix2 ⟨i.val * b + j.val, mul_add_lt hn i.isLt j.isLt⟩ p) :=
  shapeCast_apply x h _ _ (by
    rw [Shape.rowMajor_val_two, Shape.rowMajor_val_three]
    rfl)

/-- An `[a, n]` array cast to `[a, b, c]`, `n = b · c`, reads at `(i, j, k)` the operand at `(i, j · c + k)`. -/
theorem shapeCast_an_abc_apply {a b c n : ℕ} (hn : n = b * c) (x : (⟨2, ![a, n]⟩ : Shape).Idx → α)
    (h : (⟨2, ![a, n]⟩ : Shape).ShapeCasts ⟨3, ![a, b, c]⟩) (i : Fin a) (j : Fin b) (k : Fin c) :
    shapeCast ⟨3, ![a, b, c]⟩ x h (ix3 i j k) = x (ix2 i ⟨j.val * c + k.val, mul_add_lt hn j.isLt k.isLt⟩) :=
  shapeCast_apply x h _ _ (by
    rw [Shape.rowMajor_val_two, Shape.rowMajor_val_three]
    show i.val * n + (j.val * c + k.val) = (i.val * b + j.val) * c + k.val
    subst hn; ring)

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b, c, d]` array cast to `[m, n]`, `m = a · b`, `n = c · d`, reads at `(i · b + j, k · d + l)` the operand at
    `(i, j, k, l)`. -/
theorem shapeCast_abcd_mn_apply {a b c d m n : ℕ} (hm : m = a * b) (hn : n = c * d)
    (x : (⟨4, ![a, b, c, d]⟩ : Shape).Idx → α) (h : (⟨4, ![a, b, c, d]⟩ : Shape).ShapeCasts ⟨2, ![m, n]⟩)
    (i : Fin a) (j : Fin b) (k : Fin c) (l : Fin d) :
    shapeCast ⟨2, ![m, n]⟩ x h (ix2 ⟨i.val * b + j.val, mul_add_lt hm i.isLt j.isLt⟩ ⟨k.val * d + l.val, mul_add_lt hn k.isLt l.isLt⟩)
      = x (ix4 i j k l) :=
  shapeCast_apply x h _ _ (by
    rw [Shape.rowMajor_val_four, Shape.rowMajor_val_two]
    show ((i.val * b + j.val) * c + k.val) * d + l.val = (i.val * b + j.val) * n + (k.val * d + l.val)
    subst hn; ring)

/-- A sum over a merged axis of length `n = a · b` is the double sum over its two coordinates. -/
theorem sum_fin_split {M : Type*} [AddCommMonoid M] {a b n : ℕ} (hn : n = a * b) (F : Fin n → M) :
    ∑ q, F q = ∑ i : Fin a, ∑ j : Fin b, F ⟨i.val * b + j.val, mul_add_lt hn i.isLt j.isLt⟩ := by
  subst hn
  rw [← (finProdFinEquiv (m := a) (n := b)).sum_comp, Fintype.sum_prod_type]
  refine Finset.sum_congr rfl fun i _ => Finset.sum_congr rfl fun j _ => congrArg F (Fin.ext ?_)
  rw [finProdFinEquiv_apply_val]
  show j.val + b * i.val = i.val * b + j.val
  ring

end Idealize.ShloMosaic.ValueIdx
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibBroadcast.lean ====
/-
  Broadcasts of a rank-3 array along its unit axes, and a vector cast to a rank-3 row, read at an index written by
  coordinates, for any element type and any extents: [a,1,c] → [a,b,c] reads the operand at (i, 0, k); [1,b,c] → [a,b,c]
  at (0, j, k); [1,1,c] → [a,b,c] at (0, 0, k); and [a] → [1,1,a] reads the vector at i. Each is the library's
  read-at-an-index lemma with the unit axes decided.
-/
import Idealize.ShloMosaic.Lib.Pipeline.Value
import Idealize.ShloMosaic.Lib.ValueIdx

namespace Idealize.ShloMosaic.ValueIdx

open Idealize.ShloMosaic

variable {α : Type}

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[a]` cast to `[1, 1, a]` reads, at `(u, w, i)`, the operand at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]
    simp)

end Idealize.ShloMosaic.ValueIdx
-- ==== Proof.KerRows.lean ====
/-
  The kernel's weight rows read at an index.

  The kernel body works on one `[1, 3, 16, 128]` tile of the image. From each colour plane `[1, 1, 16, 128]` of the tile it
  computes, position by position, the clipped grid coordinate, its fractional part and the words of the lower and upper
  grid points. It then lays the 16 × 128 positions out as 2048 lanes and forms, per colour, a `33 × 2048` array whose
  column at lane `p` is the row of weights of that position's coordinate: the lower weight where the row number equals
  the lower grid point, the upper weight where it equals the upper grid point. Lane `p` is position `(p / 128, p % 128)`.
-/
import proofs.«169817_j28467043237891_2_alg».proof.Proof.Gen.KernelIdeal.Skeleton
import proofs.«169817_j28467043237891_2_alg».proof.Proof.Spec
import proofs.«169817_j28467043237891_2_alg».proof.Proof.LibTiles
import proofs.«169817_j28467043237891_2_alg».proof.Proof.LibLayout
import proofs.«169817_j28467043237891_2_alg».proof.Proof.LibBroadcast
import Idealize.ShloMosaic.Lib.Pipeline.Value
import Idealize.ShloMosaic.Lib.ValueIdx
import Idealize.ShloMosaic.PureOps.Ideal.Laws

noncomputable section

namespace Cert.KerRows

open Cert.KernelIdeal Cert.KernelIdeal.Gen Idealize.ShloMosaic Idealize.ShloMosaic.ValueIdx Idealize.ShloMosaic.Grid33 Cert.Interp

/-- The tile row of a lane. -/
def laneH (p : Fin 2048) : Fin 16 := ⟨p.val / 128, by omega⟩
/-- The tile column of a lane. -/
def laneW (p : Fin 2048) : Fin 128 := ⟨p.val % 128, by omega⟩

theorem cmpi_apply {s : Shape} {w : Nat} (q : CmpIPredicate) (a b : IVec s w) (i : s.Idx) :
    cmpi q a b i = IntOp.cmpi q (a i) (b i) := rfl

/-- The `[16, 128]` tile laid out as one row of 2048 lanes, read at a lane. -/
theorem cast_lane {α : Type} (x : S16x128.Idx → α) (hc : S16x128.ShapeCasts S1x2048) (u : Fin 1) (p : Fin 2048) :
    shapeCast S1x2048 x hc (ix2 u p) = x (ix2 (laneH p) (laneW p)) :=
  shapeCast_ab_1n_apply (a := 16) (b := 128) (n := 2048) rfl x hc u p

/-- The row number of the `33 × 2048` arrays as a word. -/
theorem iota_row (n : Fin 33) (p : Fin 2048) :
    iota .tc S33x2048 32 [0] iota_S33x2048_d0_w32 (ix2 n p) = BitVec.ofNat 32 n.val :=
  iota_single_apply .tc S33x2048 32 0 _ (ix2 n p)

section Axis_k
variable (v : Vec Ideal S1x1x16x128 .f32) (h : Fin 16) (w : Fin 128)

/-- The fractional part of the coordinate at a tile position. -/
theorem fr_k : k0_pay5 (F := Ideal) v (ix2 h w) = frac (coord (v (ix4 (0 : Fin 1) (0 : Fin 1) h w))) := by
  show frac (clip (pre (shapeCast S16x128 v _ (ix2 h w)))) = _
  rw [shapeCast_11ab_ab_apply]; rfl

/-- The word of the lower grid point at a tile position. -/
theorem lo_k : k0_pay6 (F := Ideal) v (ix2 h w) = BitVec.ofNat 32 (cell (coord (v (ix4 (0 : Fin 1) (0 : Fin 1) h w)))).val := by
  show lo (clip (pre (shapeCast S16x128 v _ (ix2 h w)))) = _
  rw [shapeCast_11ab_ab_apply]; exact lo_clip _

/-- The word of the upper grid point at a tile position. -/
theorem hi_k : k0_pay7 (F := Ideal) v (ix2 h w) = BitVec.ofNat 32 (cellUp (coord (v (ix4 (0 : Fin 1) (0 : Fin 1) h w)))).val := by
  show hi (clip (pre (shapeCast S16x128 v _ (ix2 h w)))) = _
  rw [shapeCast_11ab_ab_apply]; exact hi_clip _

end Axis_k

section Axis_j
variable (v : Vec Ideal S1x1x16x128 .f32) (h : Fin 16) (w : Fin 128)

/-- The fractional part of the coordinate at a tile position. -/
theorem fr_j : k0_pay11 (F := Ideal) (k0_pay8 v) (ix2 h w) = frac (coord (v (ix4 (0 : Fin 1) (0 : Fin 1) h w))) := by
  show frac (clip (pre (shapeCast S16x128 v _ (ix2 h w)))) = _
  rw [shapeCast_11ab_ab_apply]; rfl

/-- The word of the lower grid point at a tile position. -/
theorem lo_j : k0_pay12 (F := Ideal) (k0_pay8 v) (ix2 h w) = BitVec.ofNat 32 (cell (coord (v (ix4 (0 : Fin 1) (0 : Fin 1) h w)))).val := by
  show lo (clip (pre (shapeCast S16x128 v _ (ix2 h w)))) = _
  rw [shapeCast_11ab_ab_apply]; exact lo_clip _

/-- The word of the upper grid point at a tile position. -/
theorem hi_j : k0_pay13 (F := Ideal) (k0_pay8 v) (ix2 h w) = BitVec.ofNat 32 (cellUp (coord (v (ix4 (0 : Fin 1) (0 : Fin 1) h w)))).val := by
  show hi (clip (pre (shapeCast S16x128 v _ (ix2 h w)))) = _
  rw [shapeCast_11ab_ab_apply]; exact hi_clip _

end Axis_j

section Axis_i
variable (v : Vec Ideal S1x1x16x128 .f32) (h : Fin 16) (w : Fin 128)

/-- The fractional part of the coordinate at a tile position. -/
theorem fr_i : k0_pay16 (F := Ideal) (k0_pay2 v) (ix2 h w) = frac (coord (v (ix4 (0 : Fin 1) (0 : Fin 1) h w))) := by
  show frac (clip (pre (shapeCast S16x128 v _ (ix2 h w)))) = _
  rw [shapeCast_11ab_ab_apply]; rfl

/-- The word of the lower grid point at a tile position. -/
theorem lo_i : k0_pay17 (F := Ideal) (k0_pay2 v) (ix2 h w) = BitVec.ofNat 32 (cell (coord (v (ix4 (0 : Fin 1) (0 : Fin 1) h w)))).val := by
  show lo (clip (pre (shapeCast S16x128 v _ (ix2 h w)))) = _
  rw [shapeCast_11ab_ab_apply]; exact lo_clip _

/-- The word of the upper grid point at a tile position. -/
theorem hi_i : k0_pay18 (F := Ideal) (k0_pay2 v) (ix2 h w) = BitVec.ofNat 32 (cellUp (coord (v (ix4 (0 : Fin 1) (0 : Fin 1) h w)))).val := by
  show hi (clip (pre (shapeCast S16x128 v _ (ix2 h w)))) = _
  rw [shapeCast_11ab_ab_apply]; exact hi_clip _

end Axis_i

/-- The blue row (first table axis): a `33 × 2048` array. -/
theorem row_i (v : Vec Ideal S1x1x16x128 .f32) (n : Fin 33) (p : Fin 2048) :
    k0_pay23 (F := Ideal) (k0_pay16 (k0_pay2 v)) (k0_pay17 (k0_pay2 v)) (k0_pay18 (k0_pay2 v)) (ix2 n p)
      = row (coord (v (ix4 (0 : Fin 1) (0 : Fin 1) (laneH p) (laneW p)))) n := by
  unfold k0_pay23
  simp only [addf_apply, select_apply, cmpi_apply, subf_apply, broadcast_apply, iota_single_apply, broadcastTo_1b_ab_apply, shapeCast_self, cast_lane]
  rw [iota_row, lo_i, hi_i, fr_i]
  show Scalar.select (IntOp.cmpi .eq (BitVec.ofNat 32 n.val) _) (cofrac _) (Ideal.ofBits .f32 0x00000000#32)
      + Scalar.select (IntOp.cmpi .eq (BitVec.ofNat 32 n.val) _) (frac _) (Ideal.ofBits .f32 0x00000000#32) = _
  rw [select_cmpi_eq, select_cmpi_eq, Ideal.ofBits_zero_f32]
  rfl

/-- The red row (last table axis), stored as `1 × 33 × 2048`. -/
theorem row_k (v : Vec Ideal S1x1x16x128 .f32) (u : Fin 1) (n : Fin 33) (p : Fin 2048) :
    k0_pay24 (F := Ideal) (k0_pay19 (k0_pay7 v)) (k0_pay20 (k0_pay5 v)) (iota .tc S33x2048 32 [0] iota_S33x2048_d0_w32)
        (k0_pay21 (k0_pay6 v)) (k0_pay22 (k0_pay5 v)) (ix3 u n p)
      = row (coord (v (ix4 (0 : Fin 1) (0 : Fin 1) (laneH p) (laneW p)))) n := by
  unfold k0_pay24 k0_pay19 k0_pay22 k0_pay20 k0_pay21
  simp only [shapeCast_ab_1ab_apply, addf_apply, select_apply, cmpi_apply, subf_apply, broadcast_apply, iota_single_apply, broadcastTo_1b_ab_apply, shapeCast_self, cast_lane]
  rw [iota_row, lo_k, hi_k, fr_k]
  show Scalar.select (IntOp.cmpi .eq (BitVec.ofNat 32 n.val) _) (cofrac _) (Ideal.ofBits .f32 0x00000000#32)
      + Scalar.select (IntOp.cmpi .eq (BitVec.ofNat 32 n.val) _) (frac _) (Ideal.ofBits .f32 0x00000000#32) = _
  rw [select_cmpi_eq, select_cmpi_eq, Ideal.ofBits_zero_f32]
  rfl

/-- The green row (middle table axis), repeated along a new middle axis: `33 × 33 × 2048`. -/
theorem row_j (v : Vec Ideal S1x1x16x128 .f32) (n k : Fin 33) (p : Fin 2048) :
    k0_pay25 (F := Ideal) (k0_pay11 (k0_pay8 v)) (k0_pay12 (k0_pay8 v)) (k0_pay13 (k0_pay8 v)) (ix3 n k p)
      = row (coord (v (ix4 (0 : Fin 1) (0 : Fin 1) (laneH p) (laneW p)))) n := by
  unfold k0_pay25
  simp only [broadcastTo_a1c_abc_apply, shapeCast_ab_a1b_apply, addf_apply, select_apply, cmpi_apply, subf_apply, broadcast_apply, iota_single_apply, broadcastTo_1b_ab_apply, shapeCast_self, cast_lane]
  rw [iota_row, lo_j, hi_j, fr_j]
  show Scalar.select (IntOp.cmpi .eq (BitVec.ofNat 32 n.val) _) (cofrac _) (Ideal.ofBits .f32 0x00000000#32)
      + Scalar.select (IntOp.cmpi .eq (BitVec.ofNat 32 n.val) _) (frac _) (Ideal.ofBits .f32 0x00000000#32) = _
  rw [select_cmpi_eq, select_cmpi_eq, Ideal.ofBits_zero_f32]
  rfl

end Cert.KerRows

end
-- ==== Proof.LibTrilinear.lean ====
/-
  A general lemma file, free of any program: contracting a table against "two-point rows".

  A two-point row on `Fin N` puts weight `u` on position `a` and weight `v` on position `b` (the two may coincide,
  in which case the position carries `u + v`) and zero everywhere else. Summing `f n` against such a row picks out
  `f a * u + f b * v`; doing so on three axes in turn turns the full contraction of a rank-3 table against the
  outer product of three rows into the eight-corner trilinear interpolation formula. The laws are proved over ℝ,
  where multiplication distributes over addition without side conditions, and then transported to the extended
  reals for tables and weights that are real.
-/
import Mathlib.Data.EReal.Basic
import Mathlib.Algebra.BigOperators.Ring.Finset

namespace Idealize.ShloMosaic.Trilinear

open scoped BigOperators

/-- The two-point row: weight `u` at `a`, weight `v` at `b`, zero elsewhere. -/
def hat {N : ℕ} (a b : Fin N) (u v : ℝ) (n : Fin N) : ℝ := (if n = a then u else 0) + (if n = b then v else 0)

/-- Summing against a two-point row reads the two positions. -/
theorem sum_mul_hat {N : ℕ} (f : Fin N → ℝ) (a b : Fin N) (u v : ℝ) :
    ∑ n, f n * hat a b u v n = f a * u + f b * v := by
  unfold hat
  simp only [mul_add, Finset.sum_add_distrib, mul_ite, mul_zero, Finset.sum_ite_eq', Finset.mem_univ, if_true]

/-- The full contraction of a rank-3 table against three two-point rows (the inner two as an outer product) is the
    eight-corner trilinear formula. -/
theorem contract_eq_corners {A B C : ℕ} (g : Fin A → Fin B → Fin C → ℝ) (i0 i1 : Fin A) (j0 j1 : Fin B) (k0 k1 : Fin C)
    (ui wi uj wj uk wk : ℝ) :
    ∑ i, (∑ j, ∑ k, g i j k * (hat j0 j1 uj wj j * hat k0 k1 uk wk k)) * hat i0 i1 ui wi i
      = ((g i0 j0 k0 * uk + g i0 j0 k1 * wk) * uj + (g i0 j1 k0 * uk + g i0 j1 k1 * wk) * wj) * ui
        + ((g i1 j0 k0 * uk + g i1 j0 k1 * wk) * uj + (g i1 j1 k0 * uk + g i1 j1 k1 * wk) * wj) * wi := by
  have h1 : ∀ i j, ∑ k, g i j k * (hat j0 j1 uj wj j * hat k0 k1 uk wk k)
      = (g i j k0 * uk + g i j k1 * wk) * hat j0 j1 uj wj j := by
    intro i j
    rw [← sum_mul_hat (fun k => g i j k) k0 k1 uk wk, Finset.sum_mul]
    exact Finset.sum_congr rfl fun k _ => by ring
  have h2 : ∀ i, ∑ j, (g i j k0 * uk + g i j k1 * wk) * hat j0 j1 uj wj j
      = (g i j0 k0 * uk + g i j0 k1 * wk) * uj + (g i j1 k0 * uk + g i j1 k1 * wk) * wj :=
    fun i => sum_mul_hat (fun j => g i j k0 * uk + g i j k1 * wk) j0 j1 uj wj
  simp only [h1, h2]
  exact sum_mul_hat (fun i => (g i j0 k0 * uk + g i j0 k1 * wk) * uj + (g i j1 k0 * uk + g i j1 k1 * wk) * wj) i0 i1 ui wi

/-- A finite sum of real numbers, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two-point row read in the extended reals. -/
theorem coe_hat {N : ℕ} (a b : Fin N) (u v : ℝ) (n : Fin N) :
    ((hat a b u v n : ℝ) : EReal) = (if n = a then (u : EReal) else 0) + (if n = b then (v : EReal) else 0) := by
  unfold hat
  rw [EReal.coe_add]
  congr 1 <;> split_ifs <;> simp

/-- The contraction law in the extended reals, for a real table and real weights. -/
theorem contract_eq_corners_ereal {A B C : ℕ} (g : Fin A → Fin B → Fin C → ℝ) (i0 i1 : Fin A) (j0 j1 : Fin B) (k0 k1 : Fin C)
    (ui wi uj wj uk wk : ℝ) :
    ∑ i, (∑ j, ∑ k, (g i j k : EReal) * (((hat j0 j1 uj wj j : ℝ) : EReal) * ((hat k0 k1 uk wk k : ℝ) : EReal)))
        * ((hat i0 i1 ui wi i : ℝ) : EReal)
      = (((g i0 j0 k0 : EReal) * uk + (g i0 j0 k1 : EReal) * wk) * uj + ((g i0 j1 k0 : EReal) * uk + (g i0 j1 k1 : EReal) * wk) * wj) * ui
        + (((g i1 j0 k0 : EReal) * uk + (g i1 j0 k1 : EReal) * wk) * uj + ((g i1 j1 k0 : EReal) * uk + (g i1 j1 k1 : EReal) * wk) * wj) * wi := by
  simp only [← EReal.coe_mul, ← EReal.coe_add, ← coe_sum]
  rw [contract_eq_corners]

end Idealize.ShloMosaic.Trilinear
-- ==== Proof.Bridge.lean ====
/-
  The law that joins the two programs.

  Contracting a 33 × 33 × 33 table against the weight rows of three clipped coordinates — the full sum over all 33³
  entries, each entry times the product of its three row weights — is the eight-corner interpolation formula, provided
  every table entry is a real number. The weights are real because the coordinates are clipped; the table entries are
  real by the finiteness precondition. Over the reals the sum collapses by distributivity, which is exactly the step
  that can fail at an infinite entry (an infinite entry times a zero weight is not absorbed by the other terms).
-/
import proofs.«169817_j28467043237891_2_alg».proof.Proof.Spec
import proofs.«169817_j28467043237891_2_alg».proof.Proof.LibTrilinear

noncomputable section

namespace Cert.Interp

open Idealize.ShloMosaic Idealize.ShloMosaic.Grid33 Idealize.ShloMosaic.Trilinear

/-- The weight row of a clipped coordinate is a real two-point row. -/
theorem row_clip (t : EReal) (n : Fin 33) :
    row (clip t) n = ((hat (cell (clip t)) (cellUp (clip t)) (1 - fracR (clip t)) (fracR (clip t)) n : ℝ) : EReal) := by
  unfold row
  rw [cofrac_clip_coe, frac_clip_coe, coe_hat]

/-- THE LAW: the full contraction of a finite table against three weight rows is the eight-corner formula. -/
theorem contract_rows (T : Fin 33 → Fin 33 → Fin 33 → EReal) (hT : ∀ p q r, T p q r ≠ ⊤ ∧ T p q r ≠ ⊥) (tk tj ti : EReal) :
    ∑ i, (∑ j, ∑ k, T i j k * (row (clip tj) j * row (clip tk) k)) * row (clip ti) i
      = corners T (clip tk) (clip tj) (clip ti) := by
  obtain ⟨g, rfl⟩ : ∃ g : Fin 33 → Fin 33 → Fin 33 → ℝ, T = fun p q r => ((g p q r : ℝ) : EReal) :=
    ⟨fun p q r => (T p q r).toReal, by
      funext p q r; exact (EReal.coe_toReal (hT p q r).1 (hT p q r).2).symm⟩
  unfold corners
  simp only [row_clip, cofrac_clip_coe, frac_clip_coe]
  exact contract_eq_corners_ereal g (cell (clip ti)) (cellUp (clip ti)) (cell (clip tj)) (cellUp (clip tj))
    (cell (clip tk)) (cellUp (clip tk)) (1 - fracR (clip ti)) (fracR (clip ti)) (1 - fracR (clip tj)) (fracR (clip tj))
    (1 - fracR (clip tk)) (fracR (clip tk))

end Cert.Interp

end
-- ==== Proof.KerValue.lean ====
/-
  The value the kernel body leaves in its output tile.

  For one `[1, 3, 16, 128]` tile `x` of the image and the whole `[99, 1089]` table `T` (row `c · 33 + i`, column
  `j · 33 + k` holding the entry `(c, i, j, k)`), the body multiplies the green row by the red row into a
  `33 × 33 × 2048` array, merges its first two axes into 1089, multiplies the table by it (a matrix product with a zero
  accumulator: a plain sum over the 1089 columns), splits the 99 result rows into `3 × 33`, multiplies by the blue row
  and sums over the 33. At output position `(c, h, w)` this is the full contraction of `T[c]` against the three weight
  rows of the position's coordinates, which for a finite table is the eight-corner interpolation.
-/
import proofs.«169817_j28467043237891_2_alg».proof.Proof.Gen.KernelIdeal.Frame
import proofs.«169817_j28467043237891_2_alg».proof.Proof.KerRows
import proofs.«169817_j28467043237891_2_alg».proof.Proof.Bridge

noncomputable section

namespace Cert.KerValue

open Cert.KernelIdeal Cert.KernelIdeal.Gen Idealize.ShloMosaic Idealize.ShloMosaic.ValueIdx Idealize.ShloMosaic.Grid33 Cert.Interp Cert.KerRows

/-- The sum over the middle axis of a `3 × 33 × 2048` array, read at `(c, p)`. -/
theorem lane_sum (v : FVec Ideal S3x33x2048 .f32) (hr : S3x33x2048.Reduces [1] S3x2048) (hφ : FKind.Formats .f32)
    (hacc : (0x00000000#32 : BitVec 32) = FKind.add.neutral .f32 hφ) (c : Fin 3) (p : Fin 2048) :
    multiReduction .add [1] S3x2048 v 0x00000000#32 hr hφ hacc (ix2 c p) = ∑ i : Fin 33, v (ix3 c i p) :=
  (Ideal.multiReduction_add_single v _ hr hφ hacc (ix2 c p)).trans
    (Finset.sum_congr rfl fun i _ => congrArg v (funext fun a => Fin.ext (by
      match a with
      | ⟨0, _⟩ => rfl
      | ⟨1, _⟩ => rfl
      | ⟨2, _⟩ => rfl)))

/-- The matrix product into a zero accumulator, read at `(m, p)`: the sum over the 1089 columns. -/
theorem matmul_read (lhs : FVec Ideal S99x1089 .bf16) (rhs : FVec Ideal S1089x2048 .bf16) (m : Fin 99) (p : Fin 2048) :
    matmul dot_S99x1089_S1089x2048_S99x2048_1_0_0_1_n_n none lhs rhs (constant S99x2048 .f32 0x00000000#32) (ix2 m p)
      = ∑ q : Fin 1089, lhs (ix2 m q) * rhs (ix2 q p) := by
  refine (Ideal.matmul_constant_zero_apply dot_S99x1089_S1089x2048_S99x2048_1_0_0_1_n_n none lhs rhs (ix2 m p)).trans ?_
  rw [← Equiv.sum_comp (contrEquiv1 dot_S99x1089_S1089x2048_S99x2048_1_0_0_1_n_n 1089 rfl rfl).symm]
  refine Finset.sum_congr rfl fun q _ => ?_
  have hl : dot_S99x1089_S1089x2048_S99x2048_1_0_0_1_n_n.lhsIdx (ix2 m p) ((contrEquiv1 dot_S99x1089_S1089x2048_S99x2048_1_0_0_1_n_n 1089 rfl rfl).symm q) = ix2 m q := by
    funext a; apply Fin.ext
    match a with
    | ⟨0, _⟩ => rfl
    | ⟨1, _⟩ =>
      exact (dot_S99x1089_S1089x2048_S99x2048_1_0_0_1_n_n.lhsIdx_val_of_single (cl := 1) rfl _ _).trans (contrEquiv1_symm_val dot_S99x1089_S1089x2048_S99x2048_1_0_0_1_n_n 1089 rfl rfl q)
  have hrr : dot_S99x1089_S1089x2048_S99x2048_1_0_0_1_n_n.rhsIdx (ix2 m p) ((contrEquiv1 dot_S99x1089_S1089x2048_S99x2048_1_0_0_1_n_n 1089 rfl rfl).symm q) = ix2 q p := by
    funext a; apply Fin.ext
    match a with
    | ⟨0, _⟩ =>
      exact (dot_S99x1089_S1089x2048_S99x2048_1_0_0_1_n_n.rhsIdx_val_of_single (cr := 0) rfl _ _).trans (contrEquiv1_symm_val dot_S99x1089_S1089x2048_S99x2048_1_0_0_1_n_n 1089 rfl rfl q)
    | ⟨1, _⟩ => rfl
  rw [hl, hrr]

/-- The `3 × 2048` result viewed as `3 × 16 × 128`, read at `(c, h, w)`. -/
theorem cast_result {α : Type} (x : S3x2048.Idx → α) (hc : S3x2048.ShapeCasts S3x16x128) (c : Fin 3) (h : Fin 16) (w : Fin 128) :
    shapeCast S3x16x128 x hc (ix3 c h w) = x (ix2 c ⟨h.val * 128 + w.val, by omega⟩) :=
  shapeCast_an_abc_apply (a := 3) (b := 16) (c := 128) (n := 2048) rfl x hc c h w

/-- The `99 × 2048` product viewed as `3 × 33 × 2048`, read at `(c, i, p)`. -/
theorem cast_rows {α : Type} (x : S99x2048.Idx → α) (hc : S99x2048.ShapeCasts S3x33x2048) (c : Fin 3) (i : Fin 33) (p : Fin 2048) :
    shapeCast S3x33x2048 x hc (ix3 c i p) = x (ix2 ⟨c.val * 33 + i.val, by omega⟩ p) :=
  shapeCast_nc_abc_apply (a := 3) (b := 33) (c := 2048) (n := 99) rfl x hc c i p

/-- The `33 × 33 × 2048` weight products with the first two axes merged, read at `(q, p)`. -/
theorem cast_cols {α : Type} (x : S33x33x2048.Idx → α) (hc : S33x33x2048.ShapeCasts S1089x2048) (q : Fin 1089) (p : Fin 2048) :
    shapeCast S1089x2048 x hc (ix2 q p) = x (ix3 ⟨q.val / 33, by omega⟩ ⟨q.val % 33, by omega⟩ p) :=
  shapeCast_abc_nc_apply (a := 33) (b := 33) (c := 2048) (n := 1089) rfl x hc q p

/-- The store's payload read at output position `(c, h, w)`, over any blue row `A`, red row `B`, repeated green row `C`
    and table `X`. -/
theorem payload_read (A : FVec Ideal S33x2048 .f32) (B : FVec Ideal S1x33x2048 .f32) (C : FVec Ideal S33x33x2048 .f32)
    (X : Vec Ideal S99x1089 .bf16) (u : Fin 1) (c : Fin 3) (h : Fin 16) (w : Fin 128) :
    k0_pay1 (F := Ideal) A B C X (ix4 u c h w)
      = ∑ i : Fin 33, (∑ q : Fin 1089, X (ix2 ⟨c.val * 33 + i.val, by omega⟩ q)
            * (C (ix3 ⟨q.val / 33, by omega⟩ ⟨q.val % 33, by omega⟩ ⟨h.val * 128 + w.val, by omega⟩)
              * B (ix3 (0 : Fin 1) ⟨q.val % 33, by omega⟩ ⟨h.val * 128 + w.val, by omega⟩)))
          * A (ix2 i ⟨h.val * 128 + w.val, by omega⟩) := by
  unfold k0_pay1
  simp only [shapeCast_abc_1abc_apply, cast_result]
  refine (lane_sum _ _ _ _ c ⟨h.val * 128 + w.val, by omega⟩).trans ?_
  refine Finset.sum_congr rfl fun i _ => ?_
  rw [mulf_apply, cast_rows, broadcastTo_1bc_abc_apply, shapeCast_ab_1ab_apply, matmul_read, shapeCast_self]
  refine congrArg (· * A (ix2 i ⟨h.val * 128 + w.val, by omega⟩)) ?_
  refine Finset.sum_congr rfl fun q _ => ?_
  rw [cast_cols, truncf_apply, mulf_apply, broadcastTo_1bc_abc_apply]

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Colour plane 0 of the tile, as the body loads it. -/
theorem plane0 (x0 : Vec Ideal S1x3x16x128 .f32) (h : Fin 16) (w : Fin 128) :
    View.ld x0 r0_0 (ix4 (0 : Fin 1) (0 : Fin 1) h w) = x0 (ix4 (0 : Fin 1) (0 : Fin 3) h w) := by
  refine congrArg x0 (funext fun a => Fin.ext ?_)
  match a with
  | ⟨0, _⟩ => rfl
  | ⟨1, _⟩ => rfl
  | ⟨2, _⟩ => show 0 + 1 * h.val = h.val; omega
  | ⟨3, _⟩ => show 0 + 1 * w.val = w.val; omega

/-- Colour plane 1 of the tile, as the body loads it. -/
theorem plane1 (x0 : Vec Ideal S1x3x16x128 .f32) (h : Fin 16) (w : Fin 128) :
    View.ld x0 r0_1 (ix4 (0 : Fin 1) (0 : Fin 1) h w) = x0 (ix4 (0 : Fin 1) (1 : Fin 3) h w) := by
  refine congrArg x0 (funext fun a => Fin.ext ?_)
  match a with
  | ⟨0, _⟩ => rfl
  | ⟨1, _⟩ => rfl
  | ⟨2, _⟩ => show 0 + 1 * h.val = h.val; omega
  | ⟨3, _⟩ => show 0 + 1 * w.val = w.val; omega

/-- Colour plane 2 of the tile, as the body loads it. -/
theorem plane2 (x0 : Vec Ideal S1x3x16x128 .f32) (h : Fin 16) (w : Fin 128) :
    View.ld x0 r0_2 (ix4 (0 : Fin 1) (0 : Fin 1) h w) = x0 (ix4 (0 : Fin 1) (2 : Fin 3) h w) := by
  refine congrArg x0 (funext fun a => Fin.ext ?_)
  match a with
  | ⟨0, _⟩ => rfl
  | ⟨1, _⟩ => rfl
  | ⟨2, _⟩ => show 0 + 1 * h.val = h.val; omega
  | ⟨3, _⟩ => show 0 + 1 * w.val = w.val; omega

/-- THE TILE'S VALUE: what the body leaves at output position `(c, h, w)` of its tile is the eight-corner interpolation
    of the table's channel `c` at the three coordinates of tile position `(h, w)`, for a table of real entries. -/
theorem tile_value (x0 : Vec Ideal S1x3x16x128 .f32) (x1 : Vec Ideal S99x1089 .bf16)
    (hfin : ∀ i, x1 i ≠ ⊤ ∧ x1 i ≠ ⊥) (u : Fin 1) (c : Fin 3) (h : Fin 16) (w : Fin 128) :
    out0_2 x0 x1 (ix4 u c h w)
      = corners (fun i j k => x1 (ix2 ⟨c.val * 33 + i.val, by omega⟩ ⟨j.val * 33 + k.val, by omega⟩))
          (coord (x0 (ix4 (0 : Fin 1) (0 : Fin 3) h w))) (coord (x0 (ix4 (0 : Fin 1) (1 : Fin 3) h w)))
          (coord (x0 (ix4 (0 : Fin 1) (2 : Fin 3) h w))) := by
  unfold out0_2
  rw [View.canon_unit_zero hz4, View.ld_unit_zero (S := S99x1089) hz2, payload_read]
  have eB : ∀ (n : Fin 33) (p : Fin 2048),
      k0_pay24 (F := Ideal) (k0_pay19 (k0_pay7 (View.ld x0 r0_0))) (k0_pay20 (k0_pay5 (View.ld x0 r0_0)))
          (iota .tc S33x2048 32 [0] iota_S33x2048_d0_w32) (k0_pay21 (k0_pay6 (View.ld x0 r0_0)))
          (k0_pay22 (k0_pay5 (View.ld x0 r0_0))) (ix3 (0 : Fin 1) n p)
        = row (coord (View.ld x0 r0_0 (ix4 (0 : Fin 1) (0 : Fin 1) (laneH p) (laneW p)))) n :=
    fun n p => row_k (View.ld x0 r0_0) 0 n p
  generalize k0_pay24 (F := Ideal) (k0_pay19 (k0_pay7 (View.ld x0 r0_0))) (k0_pay20 (k0_pay5 (View.ld x0 r0_0)))
      (iota .tc S33x2048 32 [0] iota_S33x2048_d0_w32) (k0_pay21 (k0_pay6 (View.ld x0 r0_0)))
      (k0_pay22 (k0_pay5 (View.ld x0 r0_0))) = B at eB ⊢
  simp only [row_i, row_j, eB]
  have hlh : laneH ⟨h.val * 128 + w.val, by omega⟩ = h := Fin.ext (by show (h.val * 128 + w.val) / 128 = h.val; omega)
  have hlw : laneW ⟨h.val * 128 + w.val, by omega⟩ = w := Fin.ext (by show (h.val * 128 + w.val) % 128 = w.val; omega)
  rw [hlh, hlw, plane0, plane1, plane2]
  simp only [sum_fin_split (a := 33) (b := 33) (n := 1089) rfl]
  have hq : ∀ (j k : Fin 33) (hp : (j.val * 33 + k.val) / 33 < 33), (⟨(j.val * 33 + k.val) / 33, hp⟩ : Fin 33) = j :=
    fun j k _ => Fin.ext (by show (j.val * 33 + k.val) / 33 = j.val; omega)
  have hr : ∀ (j k : Fin 33) (hp : (j.val * 33 + k.val) % 33 < 33), (⟨(j.val * 33 + k.val) % 33, hp⟩ : Fin 33) = k :=
    fun j k _ => Fin.ext (by show (j.val * 33 + k.val) % 33 = k.val; omega)
  simp only [hq, hr]
  exact contract_rows (fun i j k => x1 (ix2 ⟨c.val * 33 + i.val, by omega⟩ ⟨j.val * 33 + k.val, by omega⟩))
    (fun _ _ _ => hfin _) (pre _) (pre _) (pre _)

end Cert.KerValue

end
-- ==== Proof.KerArray.lean ====
/-
  From tiles to the whole array: the kernel's run ends with the common value.

  The grid has `8 × 64 × 8` points; point `t` (row-major, last coordinate fastest) has batch `t / 512`, tile row
  `t / 8 % 64` and tile column `t % 8`. Its image tile and its output tile are both block `(batch, 0, row, column)` of
  blocks of shape `1 × 3 × 16 × 128`; the table is staged whole at every point, and it is the table argument with its
  axes merged pairwise (the change of float format on the way is the identity on extended reals). So what point `t`
  writes back is block `t` of the common value, the blocks cover the whole array, and the array ends at it.

  The steps of this file (index maps decided once over the grid, the write-back of a symbolic point, membership in a
  block, the cover, the whole-array post) are those of the value library's closed form for pointwise kernels.
-/
import proofs.«169817_j28467043237891_2_alg».proof.Proof.Gen.KernelIdeal.Value
import proofs.«169817_j28467043237891_2_alg».proof.Proof.KerValue
import Idealize.ShloMosaic.Lib.StableHlo.Run

noncomputable section

namespace Cert.KerArray

open Cert.KernelIdeal Cert.KernelIdeal.Gen Cert.KernelIdeal.Value Idealize.ShloMosaic Idealize.ShloMosaic.TcCoe Idealize.SL.Sem Idealize.ShloMosaic.ValueIdx Idealize.ShloMosaic.Grid33 Cert.Interp Cert.KerValue

open Idealize.ShloMosaic.Pipeline (Dat)

variable (m : (ℓ : Loc nD τ sig) → Buf (Elt Ideal) ℓ) (ρ : Dev nD → PrngReg)

/-- The three index maps in closed form, decided over the grid. -/
theorem idx_closed : ∀ t : Fin cfg0.N,
    win0_0.index t = ![t.val / 512, 0, t.val / 8 % 64, t.val % 8]
    ∧ win0_2.index t = ![t.val / 512, 0, t.val / 8 % 64, t.val % 8]
    ∧ win0_1.index t = ![0, 0] :=
  (by decide +kernel : ∀ t : Fin grid0.N, _)

/-- The array window 1 stages, as the region finds it: the table argument with its axes merged pairwise. -/
theorem staged_table (c : Dev nD) (y : S99x1089.Idx) :
    (V m c main_v1 : S99x1089.Idx → EReal) y
      = shapeCast S99x1089 (m ((c : Thread nD τ).loc main_arg1) : S3x33x33x33.Idx → EReal) shapeCasts_S3x33x33x33_S99x1089 y := by
  dsimp only [Gen.V, Gen.hostOps0]
  after_results
  rfl

/-- The staged table block of any point, read at an index, is the staged array there. -/
theorem table_blk (c : Dev nD) (t : Fin cfg0.N) (y : S99x1089.Idx) :
    iblk m c 1 t y = (V m c main_v1 : S99x1089.Idx → EReal) y := by
  obtain ⟨-, -, e1⟩ := idx_closed t
  have e10 : win0_1.index t (0 : Fin 2) = 0 := congrFun e1 0
  have e11 : win0_1.index t (1 : Fin 2) = 0 := congrFun e1 1
  show V m c main_v1 (((cfg0.win 1).blk t).view.emb y) = _
  refine congrArg _ (funext fun a => Fin.ext ?_)
  match a with
  | ⟨0, _⟩ => show win0_1.index t (0 : Fin 2) * 99 + 1 * (y 0).val = (y 0).val; omega
  | ⟨1, _⟩ => show win0_1.index t (1 : Fin 2) * 1089 + 1 * (y 1).val = (y 1).val; omega

/-- Every entry of a staged table block is real when every entry of the table argument is. -/
theorem table_blk_finite (hfin : ∀ (c : Dev nD) i, (m ((c : Thread nD τ).loc main_arg1) : S3x33x33x33.Idx → EReal) i ≠ (⊤ : EReal)
      ∧ (m ((c : Thread nD τ).loc main_arg1) : S3x33x33x33.Idx → EReal) i ≠ (⊥ : EReal))
    (c : Dev nD) (t : Fin cfg0.N) (y : S99x1089.Idx) : iblk m c 1 t y ≠ (⊤ : EReal) ∧ iblk m c 1 t y ≠ (⊥ : EReal) := by
  rw [table_blk, staged_table]
  exact hfin c _

/-- The staged table block at row `cc · 33 + i`, column `j · 33 + k` is the table's entry `(cc, i, j, k)`. -/
theorem table_at (c : Dev nD) (t : Fin cfg0.N) (cc : Fin 3) (i j k : Fin 33) :
    iblk m c 1 t (ix2 ⟨cc.val * 33 + i.val, by omega⟩ ⟨j.val * 33 + k.val, by omega⟩)
      = (m ((c : Thread nD τ).loc main_arg1) : S3x33x33x33.Idx → EReal) (ix4 cc i j k) := by
  rw [table_blk, staged_table]
  exact shapeCast_abcd_mn_apply (a := 3) (b := 33) (c := 33) (d := 33) (m := 99) (n := 1089) rfl rfl _ _ cc i j k

/-- The image tile of point `t` at `(0, ch, h, w)` is the image at batch `t / 512`, channel `ch`, row
    `(t / 8 % 64) · 16 + h`, column `(t % 8) · 128 + w`. -/
theorem tile_at (c : Dev nD) (t : Fin cfg0.N) (ch : Fin 3) (h : Fin 16) (w : Fin 128) :
    iblk m c 0 t (ix4 (0 : Fin 1) ch h w)
      = (m ((c : Thread nD τ).loc main_arg0) : S8x3x1024x1024.Idx → EReal)
          (ix4 ⟨t.val / 512, by have : t.val < grid0.N := t.isLt; rw [N_0] at this; omega⟩ ch
            ⟨t.val / 8 % 64 * 16 + h.val, by omega⟩ ⟨t.val % 8 * 128 + w.val, by omega⟩) := by
  obtain ⟨e0, -, -⟩ := idx_closed t
  have e00 : win0_0.index t (0 : Fin 4) = t.val / 512 := congrFun e0 0
  have e01 : win0_0.index t (1 : Fin 4) = 0 := congrFun e0 1
  have e02 : win0_0.index t (2 : Fin 4) = t.val / 8 % 64 := congrFun e0 2
  have e03 : win0_0.index t (3 : Fin 4) = t.val % 8 := congrFun e0 3
  show V m c main_arg0 (((cfg0.win 0).blk t).view.emb (ix4 (0 : Fin 1) ch h w)) = _
  rw [V_main_arg0]
  refine congrArg _ (funext fun a => Fin.ext ?_)
  match a with
  | ⟨0, _⟩ => show win0_0.index t (0 : Fin 4) * 1 + 1 * 0 = t.val / 512; omega
  | ⟨1, _⟩ => show win0_0.index t (1 : Fin 4) * 3 + 1 * ch.val = ch.val; omega
  | ⟨2, _⟩ => show win0_0.index t (2 : Fin 4) * 16 + 1 * h.val = t.val / 8 % 64 * 16 + h.val; omega
  | ⟨3, _⟩ => show win0_0.index t (3 : Fin 4) * 128 + 1 * w.val = t.val % 8 * 128 + w.val; omega

/-- The array index of position `(u, cc, h, w)` of point `t`'s output block. -/
theorem out_emb (t : Fin cfg0.N) (u : Fin 1) (cc : Fin 3) (h : Fin 16) (w : Fin 128) :
    ((cfg0.win 2).blk t).view.emb (ix4 u cc h w)
      = (ix4 ⟨t.val / 512, by have : t.val < grid0.N := t.isLt; rw [N_0] at this; omega⟩ cc
          ⟨t.val / 8 % 64 * 16 + h.val, by omega⟩ ⟨t.val % 8 * 128 + w.val, by omega⟩ : S8x3x1024x1024.Idx) := by
  obtain ⟨-, e2, -⟩ := idx_closed t
  have e20 : win0_2.index t (0 : Fin 4) = t.val / 512 := congrFun e2 0
  have e21 : win0_2.index t (1 : Fin 4) = 0 := congrFun e2 1
  have e22 : win0_2.index t (2 : Fin 4) = t.val / 8 % 64 := congrFun e2 2
  have e23 : win0_2.index t (3 : Fin 4) = t.val % 8 := congrFun e2 3
  have hu : u.val = 0 := by omega
  funext a; apply Fin.ext
  match a with
  | ⟨0, _⟩ => show win0_2.index t (0 : Fin 4) * 1 + 1 * u.val = t.val / 512; omega
  | ⟨1, _⟩ => show win0_2.index t (1 : Fin 4) * 3 + 1 * cc.val = cc.val; omega
  | ⟨2, _⟩ => show win0_2.index t (2 : Fin 4) * 16 + 1 * h.val = t.val / 8 % 64 * 16 + h.val; omega
  | ⟨3, _⟩ => show win0_2.index t (3 : Fin 4) * 128 + 1 * w.val = t.val % 8 * 128 + w.val; omega

section
variable (hfin : ∀ (c : Dev nD) i, (m ((c : Thread nD τ).loc main_arg1) : S3x33x33x33.Idx → EReal) i ≠ (⊤ : EReal)
      ∧ (m ((c : Thread nD τ).loc main_arg1) : S3x33x33x33.Idx → EReal) i ≠ (⊥ : EReal))
include hfin

/-- WHAT POINT `t` WRITES BACK is block `t` of the common value of the argument arrays. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [flushed2]
  funext j
  show out0_2 (iblk m c 0 t) (iblk m c 1 t) j
    = G (m ((c : Thread nD τ).loc main_arg0)) (m ((c : Thread nD τ).loc main_arg1)) (((cfg0.win 2).blk t).view.emb j)
  obtain ⟨u, cc, h, w, rfl⟩ : ∃ (u : Fin 1) (cc : Fin 3) (h : Fin 16) (w : Fin 128), j = ix4 u cc h w :=
    ⟨j 0, j 1, j 2, j 3, eq_ix4 (n0 := 1) (n1 := 3) (n2 := 16) (n3 := 128) j⟩
  refine (tile_value (iblk m c 0 t) (iblk m c 1 t) (table_blk_finite m hfin c t) u cc h w).trans ?_
  rw [out_emb, G_apply, tile_at m c t 0 h w, tile_at m c t 1 h w, tile_at m c t 2 h w]
  refine congrArg (fun T => corners T _ _ _) ?_
  funext i j k
  exact table_at m c t cc i j k

/-- An index of the array is in point `t`'s block iff each coordinate is in the block's range on its axis. -/
theorem mem_blk (t : Fin cfg0.N) (i : S8x3x1024x1024.Idx) :
    i ∈ ((cfg0.win 2).blk t).view.set ↔ ∀ a : Fin 4, win0_2.index t a * S1x3x16x128.size a ≤ (i a).val
      ∧ (i a).val < win0_2.index t a * S1x3x16x128.size a + S1x3x16x128.size a := by
  show i ∈ ((View.whole main_v2).slice (win0_2.rect t)).set ↔ _
  rw [View.set_slice_whole, Rect.mem_set_unit]
  exact Iff.rfl

/-- Every index of the array is in the block of the point of its batch, tile row and tile column. -/
theorem cover (i : S8x3x1024x1024.Idx) :
    ∃ t : Fin cfg0.N, (cfg0.win 2).flush t = true ∧ i ∈ ((cfg0.win 2).blk t).view.set := by
  have h0 : (i 0).val < 8 := (i 0).isLt
  have h1 : (i 1).val < 3 := (i 1).isLt
  have h2 : (i 2).val < 1024 := (i 2).isLt
  have h3 : (i 3).val < 1024 := (i 3).isLt
  have hN : ((i 0).val * 64 + (i 2).val / 16) * 8 + (i 3).val / 128 < cfg0.N := by
    show _ < grid0.N; rw [N_0]; omega
  obtain ⟨-, e2, -⟩ := idx_closed ⟨_, hN⟩
  have e20 := congrFun e2 0
  have e21 := congrFun e2 1
  have e22 := congrFun e2 2
  have e23 := congrFun e2 3
  refine ⟨⟨_, hN⟩, flush0_2 _, ?_⟩
  rw [mem_blk m hfin]
  intro a
  match a with
  | ⟨0, _⟩ =>
    show win0_2.index ⟨_, hN⟩ (0 : Fin 4) * 1 ≤ (i 0).val ∧ (i 0).val < win0_2.index ⟨_, hN⟩ (0 : Fin 4) * 1 + 1
    rw [e20]; show (((i 0).val * 64 + (i 2).val / 16) * 8 + (i 3).val / 128) / 512 * 1 ≤ _ ∧ _ < (((i 0).val * 64 + (i 2).val / 16) * 8 + (i 3).val / 128) / 512 * 1 + 1
    omega
  | ⟨1, _⟩ =>
    show win0_2.index ⟨_, hN⟩ (1 : Fin 4) * 3 ≤ (i 1).val ∧ (i 1).val < win0_2.index ⟨_, hN⟩ (1 : Fin 4) * 3 + 3
    rw [e21]; show 0 * 3 ≤ _ ∧ _ < 0 * 3 + 3
    omega
  | ⟨2, _⟩ =>
    show win0_2.index ⟨_, hN⟩ (2 : Fin 4) * 16 ≤ (i 2).val ∧ (i 2).val < win0_2.index ⟨_, hN⟩ (2 : Fin 4) * 16 + 16
    rw [e22]; show (((i 0).val * 64 + (i 2).val / 16) * 8 + (i 3).val / 128) / 8 % 64 * 16 ≤ _ ∧ _ < (((i 0).val * 64 + (i 2).val / 16) * 8 + (i 3).val / 128) / 8 % 64 * 16 + 16
    omega
  | ⟨3, _⟩ =>
    show win0_2.index ⟨_, hN⟩ (3 : Fin 4) * 128 ≤ (i 3).val ∧ (i 3).val < win0_2.index ⟨_, hN⟩ (3 : Fin 4) * 128 + 128
    rw [e23]; show (((i 0).val * 64 + (i 2).val / 16) * 8 + (i 3).val / 128) % 8 * 128 ≤ _ ∧ _ < (((i 0).val * 64 + (i 2).val / 16) * 8 + (i 3).val / 128) % 8 * 128 + 128
    omega

/-- THE ARRAY after the run is the common value of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 _ (fun t _ => flushed_eq m hfin c t) (cover m hfin)

/-- THE KERNEL'S RUN: every weakly fair execution terminates with the result array at the common value of the
    argument arrays, which are unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hfin c), (h c).2⟩) (Value.run_blocks m ρ)

end

end Cert.KerArray

end
-- ==== Proof.RefStages.lean ====
/-
  The reference's first stages read at a pixel.

  The reference scales and clips the whole image, takes channel `ch` of it as an `[8, 1024, 1024]` array, and from that
  array takes the floor, the fractional part, the floor as a word and the capped successor of that word. At pixel
  `(b, h, w)` these are the clipped grid coordinate of the colour value `x[b, ch, h, w]`, its fractional part, and the
  words of its lower and upper grid points; the complements `1 - fraction` the reference forms later are the lower
  grid point's weights.
-/
import proofs.«169817_j28467043237891_2_alg».proof.Proof.Gen.ReferenceIdeal.Read
import proofs.«169817_j28467043237891_2_alg».proof.Proof.Spec

noncomputable section

namespace Cert.RefStages

open Cert.ReferenceIdeal Cert.ReferenceIdeal.Gen Cert.ReferenceIdeal.Read Idealize.ShloMosaic Idealize.ShloMosaic.ValueIdx Idealize.ShloMosaic.Grid33 Cert.Interp

variable (x : (⟨S8x3x1024x1024, .f32⟩ : BufTy).Contents (Elt Ideal)) (b : Fin 8) (h w : Fin 1024)

/-- The clipped coordinate array of channel 0 at the pixel. -/
theorem coord_k : val_main_v12 (F := Ideal) x (ix3 b h w) = coord (x (ix4 b (0 : Fin 3) h w)) := by
  have hj : idx_main_v11 (idx_main_v12 (ix3 b h w)) = ix4 b (0 : Fin 3) h w := by
    funext a; apply Fin.ext
    have hb := b.isLt; have hh := h.isLt; have hw := w.isLt
    match a with
    | ⟨0, _⟩ => show ((b.val * 1024 + h.val) * 1024 + w.val) / 1048576 = b.val; omega
    | ⟨1, _⟩ => rfl
    | ⟨2, _⟩ => show ((b.val * 1024 + h.val) * 1024 + w.val) / 1024 % 1024 = h.val; omega
    | ⟨3, _⟩ => show ((b.val * 1024 + h.val) * 1024 + w.val) % 1024 = w.val; omega
  rw [val_main_v12_apply, val_main_v11_apply, hj]
  simp only [val_main_v10_apply, val_main_call0_v4_apply, val_main_call0_v3_apply, val_main_c_apply, val_main_call0_v2_apply, val_main_call0_v1_apply, val_main_call0_v0_apply, val_main_cst_4_apply, val_main_v9_apply, val_main_v8_apply, val_main_cst_3_apply, val_main_v7_apply, val_main_v6_apply, val_main_cst_2_apply, val_main_v5_apply, val_main_v4_apply, val_main_cst_1_apply, val_main_v3_apply, val_main_v2_apply, val_main_cst_0_apply, val_main_v1_apply, val_main_v0_apply, val_main_cst_apply]
  show min ((((32#32 : BitVec 32).toInt : ℤ) : ℝ) : EReal) (max (Ideal.ofBits .f32 0x00000000#32) (pre (x (ix4 b (0 : Fin 3) h w)))) = clip (pre (x (ix4 b (0 : Fin 3) h w)))
  rw [sitofp_32]
  rfl

/-- The fractional part. -/
theorem frac_k : val_main_v18 (F := Ideal) x (ix3 b h w) = frac (coord (x (ix4 b (0 : Fin 3) h w))) := by
  rw [val_main_v18_apply, val_main_v17_apply, coord_k]; rfl

/-- The word of the lower grid point. -/
theorem lo_k : val_main_v19 (F := Ideal) x (ix3 b h w) = BitVec.ofNat 32 (cell (coord (x (ix4 b (0 : Fin 3) h w)))).val := by
  rw [val_main_v19_apply, val_main_v17_apply, coord_k]
  exact lo_clip (pre (x (ix4 b (0 : Fin 3) h w)))

/-- The word of the upper grid point. -/
theorem hi_k : val_main_v23 (F := Ideal) x (ix3 b h w) = BitVec.ofNat 32 (cellUp (coord (x (ix4 b (0 : Fin 3) h w)))).val := by
  simp only [val_main_v23_apply, val_main_v21_apply, val_main_v22_apply, val_main_c_6_apply, val_main_v20_apply, val_main_c_5_apply]
  rw [val_main_v19_apply, val_main_v17_apply, coord_k]
  exact hi_clip (pre (x (ix4 b (0 : Fin 3) h w)))

/-- The clipped coordinate array of channel 1 at the pixel. -/
theorem coord_j : val_main_v14 (F := Ideal) x (ix3 b h w) = coord (x (ix4 b (1 : Fin 3) h w)) := by
  have hj : idx_main_v13 (idx_main_v14 (ix3 b h w)) = ix4 b (1 : Fin 3) h w := by
    funext a; apply Fin.ext
    have hb := b.isLt; have hh := h.isLt; have hw := w.isLt
    match a with
    | ⟨0, _⟩ => show ((b.val * 1024 + h.val) * 1024 + w.val) / 1048576 = b.val; omega
    | ⟨1, _⟩ => rfl
    | ⟨2, _⟩ => show ((b.val * 1024 + h.val) * 1024 + w.val) / 1024 % 1024 = h.val; omega
    | ⟨3, _⟩ => show ((b.val * 1024 + h.val) * 1024 + w.val) % 1024 = w.val; omega
  rw [val_main_v14_apply, val_main_v13_apply, hj]
  simp only [val_main_v10_apply, val_main_call0_v4_apply, val_main_call0_v3_apply, val_main_c_apply, val_main_call0_v2_apply, val_main_call0_v1_apply, val_main_call0_v0_apply, val_main_cst_4_apply, val_main_v9_apply, val_main_v8_apply, val_main_cst_3_apply, val_main_v7_apply, val_main_v6_apply, val_main_cst_2_apply, val_main_v5_apply, val_main_v4_apply, val_main_cst_1_apply, val_main_v3_apply, val_main_v2_apply, val_main_cst_0_apply, val_main_v1_apply, val_main_v0_apply, val_main_cst_apply]
  show min ((((32#32 : BitVec 32).toInt : ℤ) : ℝ) : EReal) (max (Ideal.ofBits .f32 0x00000000#32) (pre (x (ix4 b (1 : Fin 3) h w)))) = clip (pre (x (ix4 b (1 : Fin 3) h w)))
  rw [sitofp_32]
  rfl

/-- The fractional part. -/
theorem frac_j : val_main_v25 (F := Ideal) x (ix3 b h w) = frac (coord (x (ix4 b (1 : Fin 3) h w))) := by
  rw [val_main_v25_apply, val_main_v24_apply, coord_j]; rfl

/-- The word of the lower grid point. -/
theorem lo_j : val_main_v26 (F := Ideal) x (ix3 b h w) = BitVec.ofNat 32 (cell (coord (x (ix4 b (1 : Fin 3) h w)))).val := by
  rw [val_main_v26_apply, val_main_v24_apply, coord_j]
  exact lo_clip (pre (x (ix4 b (1 : Fin 3) h w)))

/-- The word of the upper grid point. -/
theorem hi_j : val_main_v30 (F := Ideal) x (ix3 b h w) = BitVec.ofNat 32 (cellUp (coord (x (ix4 b (1 : Fin 3) h w)))).val := by
  simp only [val_main_v30_apply, val_main_v28_apply, val_main_v29_apply, val_main_c_8_apply, val_main_v27_apply, val_main_c_7_apply]
  rw [val_main_v26_apply, val_main_v24_apply, coord_j]
  exact hi_clip (pre (x (ix4 b (1 : Fin 3) h w)))

/-- The clipped coordinate array of channel 2 at the pixel. -/
theorem coord_i : val_main_v16 (F := Ideal) x (ix3 b h w) = coord (x (ix4 b (2 : Fin 3) h w)) := by
  have hj : idx_main_v15 (idx_main_v16 (ix3 b h w)) = ix4 b (2 : Fin 3) h w := by
    funext a; apply Fin.ext
    have hb := b.isLt; have hh := h.isLt; have hw := w.isLt
    match a with
    | ⟨0, _⟩ => show ((b.val * 1024 + h.val) * 1024 + w.val) / 1048576 = b.val; omega
    | ⟨1, _⟩ => rfl
    | ⟨2, _⟩ => show ((b.val * 1024 + h.val) * 1024 + w.val) / 1024 % 1024 = h.val; omega
    | ⟨3, _⟩ => show ((b.val * 1024 + h.val) * 1024 + w.val) % 1024 = w.val; omega
  rw [val_main_v16_apply, val_main_v15_apply, hj]
  simp only [val_main_v10_apply, val_main_call0_v4_apply, val_main_call0_v3_apply, val_main_c_apply, val_main_call0_v2_apply, val_main_call0_v1_apply, val_main_call0_v0_apply, val_main_cst_4_apply, val_main_v9_apply, val_main_v8_apply, val_main_cst_3_apply, val_main_v7_apply, val_main_v6_apply, val_main_cst_2_apply, val_main_v5_apply, val_main_v4_apply, val_main_cst_1_apply, val_main_v3_apply, val_main_v2_apply, val_main_cst_0_apply, val_main_v1_apply, val_main_v0_apply, val_main_cst_apply]
  show min ((((32#32 : BitVec 32).toInt : ℤ) : ℝ) : EReal) (max (Ideal.ofBits .f32 0x00000000#32) (pre (x (ix4 b (2 : Fin 3) h w)))) = clip (pre (x (ix4 b (2 : Fin 3) h w)))
  rw [sitofp_32]
  rfl

/-- The fractional part. -/
theorem frac_i : val_main_v32 (F := Ideal) x (ix3 b h w) = frac (coord (x (ix4 b (2 : Fin 3) h w))) := by
  rw [val_main_v32_apply, val_main_v31_apply, coord_i]; rfl

/-- The word of the lower grid point. -/
theorem lo_i : val_main_v33 (F := Ideal) x (ix3 b h w) = BitVec.ofNat 32 (cell (coord (x (ix4 b (2 : Fin 3) h w)))).val := by
  rw [val_main_v33_apply, val_main_v31_apply, coord_i]
  exact lo_clip (pre (x (ix4 b (2 : Fin 3) h w)))

/-- The word of the upper grid point. -/
theorem hi_i : val_main_v37 (F := Ideal) x (ix3 b h w) = BitVec.ofNat 32 (cellUp (coord (x (ix4 b (2 : Fin 3) h w)))).val := by
  simp only [val_main_v37_apply, val_main_v35_apply, val_main_v36_apply, val_main_c_10_apply, val_main_v34_apply, val_main_c_9_apply]
  rw [val_main_v33_apply, val_main_v31_apply, coord_i]
  exact hi_clip (pre (x (ix4 b (2 : Fin 3) h w)))

/-- One minus the fractional part (stage 53). -/
theorem cofrac_53 : val_main_v53 (F := Ideal) x (ix3 b h w) = cofrac (coord (x (ix4 b (0 : Fin 3) h w))) := by
  simp only [val_main_v53_apply, val_main_v52_apply, val_main_cst_15_apply]
  rw [frac_k]; rfl

/-- One minus the fractional part (stage 88). -/
theorem cofrac_88 : val_main_v88 (F := Ideal) x (ix3 b h w) = cofrac (coord (x (ix4 b (0 : Fin 3) h w))) := by
  simp only [val_main_v88_apply, val_main_v87_apply, val_main_cst_24_apply]
  rw [frac_k]; rfl

/-- One minus the fractional part (stage 123). -/
theorem cofrac_123 : val_main_v123 (F := Ideal) x (ix3 b h w) = cofrac (coord (x (ix4 b (0 : Fin 3) h w))) := by
  simp only [val_main_v123_apply, val_main_v122_apply, val_main_cst_33_apply]
  rw [frac_k]; rfl

/-- One minus the fractional part (stage 158). -/
theorem cofrac_158 : val_main_v158 (F := Ideal) x (ix3 b h w) = cofrac (coord (x (ix4 b (0 : Fin 3) h w))) := by
  simp only [val_main_v158_apply, val_main_v157_apply, val_main_cst_42_apply]
  rw [frac_k]; rfl

/-- One minus the fractional part (stage 180). -/
theorem cofrac_180 : val_main_v180 (F := Ideal) x (ix3 b h w) = cofrac (coord (x (ix4 b (1 : Fin 3) h w))) := by
  simp only [val_main_v180_apply, val_main_v179_apply, val_main_cst_47_apply]
  rw [frac_j]; rfl

/-- One minus the fractional part (stage 194). -/
theorem cofrac_194 : val_main_v194 (F := Ideal) x (ix3 b h w) = cofrac (coord (x (ix4 b (1 : Fin 3) h w))) := by
  simp only [val_main_v194_apply, val_main_v193_apply, val_main_cst_49_apply]
  rw [frac_j]; rfl

/-- One minus the fractional part (stage 189). -/
theorem cofrac_189 : val_main_v189 (F := Ideal) x (ix3 b h w) = cofrac (coord (x (ix4 b (2 : Fin 3) h w))) := by
  simp only [val_main_v189_apply, val_main_v188_apply, val_main_cst_48_apply]
  rw [frac_i]; rfl

end Cert.RefStages

end
-- ==== Proof.RefGather.lean ====
/-
  The reference's table look-ups read at a pixel.

  The reference flattens the table `L : [3, 33, 33, 33]` to `[3, 35937]` and gathers, for every pixel, the three channel
  entries at one flat position `(p · 33 + q) · 33 + r` computed on 32-bit words. Read at result index `(c, b, h, w)` the
  gather is the flat table at row `c` and at the start index of pixel `(b, h, w)`, taken as a signed integer and clamped
  to the last position; for a position inside the table this is `L[c, p, q, r]`. The per-pixel weights reach the
  `[3, 8, 1024, 1024]` result through two broadcasts, which read the `[8, 1024, 1024]` array at the pixel.
-/
import proofs.«169817_j28467043237891_2_alg».proof.Proof.Gen.ReferenceIdeal.Read
import proofs.«169817_j28467043237891_2_alg».proof.Proof.Spec

noncomputable section

namespace Cert.RefGather

open Cert.ReferenceIdeal Cert.ReferenceIdeal.Gen Cert.ReferenceIdeal.Read Idealize.ShloMosaic Idealize.ShloMosaic.ValueIdx Idealize.ShloMosaic.Grid33 Cert.Interp

variable {α : Type}

/-- The gather read at `(c, b, h, w)`: row `c` of the operand at pixel `(b, h, w)`'s start index, signed and clamped. -/
theorem gather_read (flat : S3x35937.Idx → α) (idx : IVec S8x1024x1024x1 32) (c : Fin 3) (b : Fin 8) (h w : Fin 1024) :
    Host.gather gather_S3x35937_S8x1024x1024x1_S3x8x1024x1024_0_1_n_n_1_3_31 flat idx (ix4 c b h w)
      = flat (ix2 c ⟨min (idx (ix4 b h w (0 : Fin 1))).toInt.toNat 35936, by omega⟩) := by
  unfold Host.gather
  congr 1
  funext a
  refine Fin.ext ?_
  match a with
  | ⟨0, _⟩ =>
    show gather_S3x35937_S8x1024x1024x1_S3x8x1024x1024_0_1_n_n_1_3_31.start (ix4 c b h w) idx 0 + gather_S3x35937_S8x1024x1024x1_S3x8x1024x1024_0_1_n_n_1_3_31.batchCoord (ix4 c b h w) 0
      + gather_S3x35937_S8x1024x1024x1_S3x8x1024x1024_0_1_n_n_1_3_31.offCoord (ix4 c b h w) 0 = c.val
    rw [GatherDims.batchCoord_eq_zero _ _ _ List.not_mem_nil]
    unfold GatherDims.start
    rw [dif_neg (by decide)]
    unfold GatherDims.offCoord
    rw [dif_pos (by decide)]
    have key : ∀ (n : ℕ) (hn : n < gather_S3x35937_S8x1024x1024x1_S3x8x1024x1024_0_1_n_n_1_3_31.offsetDims.length),
        gather_S3x35937_S8x1024x1024x1_S3x8x1024x1024_0_1_n_n_1_3_31.offsetDims[n]'hn = (0 : Fin S3x8x1024x1024.rank) := by
      intro n hn
      have hl : gather_S3x35937_S8x1024x1024x1_S3x8x1024x1024_0_1_n_n_1_3_31.offsetDims.length = 1 := rfl
      have hn0 : n = 0 := by omega
      subst hn0; rfl
    rw [key]
    show 0 + 0 + c.val = c.val
    omega
  | ⟨1, _⟩ =>
    show gather_S3x35937_S8x1024x1024x1_S3x8x1024x1024_0_1_n_n_1_3_31.start (ix4 c b h w) idx 1 + gather_S3x35937_S8x1024x1024x1_S3x8x1024x1024_0_1_n_n_1_3_31.batchCoord (ix4 c b h w) 1
      + gather_S3x35937_S8x1024x1024x1_S3x8x1024x1024_0_1_n_n_1_3_31.offCoord (ix4 c b h w) 1 = min (idx (ix4 b h w (0 : Fin 1))).toInt.toNat 35936
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (1 : Fin 2) ∈ gather_S3x35937_S8x1024x1024x1_S3x8x1024x1024_0_1_n_n_1_3_31.startIndexMap from List.mem_singleton.mpr rfl)]
    have hsi : gather_S3x35937_S8x1024x1024x1_S3x8x1024x1024_0_1_n_n_1_3_31.siIdx (ix4 c b h w) ⟨List.idxOf (1 : Fin 2) gather_S3x35937_S8x1024x1024x1_S3x8x1024x1024_0_1_n_n_1_3_31.startIndexMap,
        List.idxOf_lt_length_iff.2 (List.mem_singleton.mpr rfl)⟩ = ix4 b h w (0 : Fin 1) := by
      funext e; refine Fin.ext ?_
      match e with
      | ⟨0, _⟩ => rfl
      | ⟨1, _⟩ => rfl
      | ⟨2, _⟩ => rfl
      | ⟨3, _⟩ => rfl
    rw [hsi]
    rfl

/-- The flattened table at row `c` and flat position `(p · 33 + q) · 33 + r` is `L[c, p, q, r]`. -/
theorem flat_read (L : (⟨S3x33x33x33, .f32⟩ : BufTy).Contents (Elt Ideal)) (c : Fin 3) (p q r : Fin 33) (n : Fin 35937)
    (hn : n.val = (p.val * 33 + q.val) * 33 + r.val) :
    val_main_v38 (F := Ideal) L (ix2 c n) = L (ix4 c p q r) := by
  rw [val_main_v38_apply]
  refine congrArg L ?_
  funext a; apply Fin.ext
  have hc := c.isLt; have hp := p.isLt; have hq := q.isLt; have hr := r.isLt
  match a with
  | ⟨0, _⟩ => show (c.val * 35937 + n.val) / 35937 = c.val; omega
  | ⟨1, _⟩ => show (c.val * 35937 + n.val) / 1089 % 33 = p.val; omega
  | ⟨2, _⟩ => show (c.val * 35937 + n.val) / 33 % 33 = q.val; omega
  | ⟨3, _⟩ => show (c.val * 35937 + n.val) % 33 = r.val; omega

/-- A gather whose start index at the pixel is the normalised word of `(p · 33 + q) · 33 + r` reads `L[c, p, q, r]`. -/
theorem gather_at (L : (⟨S3x33x33x33, .f32⟩ : BufTy).Contents (Elt Ideal)) (idx : IVec S8x1024x1024x1 32)
    (c : Fin 3) (b : Fin 8) (h w : Fin 1024) (p q r : Fin 33)
    (hidx : idx (ix4 b h w (0 : Fin 1))
      = Scalar.select
          (IntOp.cmpi .slt (IntOp.addi (IntOp.muli (IntOp.addi (IntOp.muli (BitVec.ofNat 32 p.val) 33#32) (BitVec.ofNat 32 q.val)) 33#32) (BitVec.ofNat 32 r.val)) 0#32)
          (IntOp.addi (IntOp.addi (IntOp.muli (IntOp.addi (IntOp.muli (BitVec.ofNat 32 p.val) 33#32) (BitVec.ofNat 32 q.val)) 33#32) (BitVec.ofNat 32 r.val)) 35937#32)
          (IntOp.addi (IntOp.muli (IntOp.addi (IntOp.muli (BitVec.ofNat 32 p.val) 33#32) (BitVec.ofNat 32 q.val)) 33#32) (BitVec.ofNat 32 r.val))) :
    Host.gather gather_S3x35937_S8x1024x1024x1_S3x8x1024x1024_0_1_n_n_1_3_31 (val_main_v38 (F := Ideal) L) idx (ix4 c b h w) = L (ix4 c p q r) := by
  have hp := p.isLt; have hq := q.isLt; have hr := r.isLt
  rw [gather_read]
  refine flat_read L c p q r _ ?_
  show min (idx (ix4 b h w (0 : Fin 1))).toInt.toNat 35936 = _
  rw [hidx, flat_word]
  exact wrap_read _ (by omega)

/-- An `[8, 1024, 1024]` array broadcast to `[1, 8, 1024, 1024]` and then to `[3, 8, 1024, 1024]`, read at `(c, b, h, w)`. -/
theorem bcast_pair (h1 : S8x1024x1024.BroadcastsInDim S1x8x1024x1024 (![1, 2, 3] : Fin 3 → Fin 4))
    (h2 : S1x8x1024x1024.BroadcastsInDim S3x8x1024x1024 (![0, 1, 2, 3] : Fin 4 → Fin 4))
    (y : S8x1024x1024.Idx → α) (c : Fin 3) (b : Fin 8) (h w : Fin 1024) :
    broadcastInDim S3x8x1024x1024 ![0, 1, 2, 3] h2 (broadcastInDim S1x8x1024x1024 ![1, 2, 3] h1 y) (ix4 c b h w) = y (ix3 b h w) := by
  rw [broadcastInDim_apply _ h2 _ (ix4 c b h w) (ix4 (0 : Fin 1) b h w) (fun a => by
    match a with
    | ⟨0, _⟩ => rfl
    | ⟨1, _⟩ => rfl
    | ⟨2, _⟩ => rfl
    | ⟨3, _⟩ => rfl)]
  exact broadcastInDim_apply _ h1 y (ix4 (0 : Fin 1) b h w) (ix3 b h w) (fun a => by
    match a with
    | ⟨0, _⟩ => rfl
    | ⟨1, _⟩ => rfl
    | ⟨2, _⟩ => rfl)

end Cert.RefGather

end
-- ==== Proof.RefValue.lean ====
/-
  The reference's result is the common value.

  Each of the reference's eight look-ups reads the table at one corner of the cell: the flat index is built on words
  from the lower or upper grid point of the blue, green and red coordinates, and is a position inside the table, so
  the look-up is `L[c, p, q, r]` for those grid points. The eight values are combined with the weights innermost axis
  first, and the final transposition exchanges the channel and batch axes.
-/
import proofs.«169817_j28467043237891_2_alg».proof.Proof.RefStages
import proofs.«169817_j28467043237891_2_alg».proof.Proof.RefGather

noncomputable section

namespace Cert.RefValue

open Cert.ReferenceIdeal Cert.ReferenceIdeal.Gen Cert.ReferenceIdeal.Read Idealize.ShloMosaic Idealize.ShloMosaic.ValueIdx Idealize.ShloMosaic.Grid33 Cert.Interp Cert.RefStages Cert.RefGather

variable (x : (⟨S8x3x1024x1024, .f32⟩ : BufTy).Contents (Elt Ideal)) (L : (⟨S3x33x33x33, .f32⟩ : BufTy).Contents (Elt Ideal))
variable (c : Fin 3) (b : Fin 8) (h w : Fin 1024)

/-- The look-up of stage 51: the lower blue, lower green and lower red grid point. -/
theorem look_51 : val_main_v51 (F := Ideal) x L (ix4 c b h w) = L (ix4 c (cell (coord (x (ix4 b (2 : Fin 3) h w)))) (cell (coord (x (ix4 b (1 : Fin 3) h w)))) (cell (coord (x (ix4 b (0 : Fin 3) h w))))) := by
  unfold val_main_v51
  refine gather_at L (val_main_v50 (F := Ideal) x) c b h w _ _ _ ?_
  rw [val_main_v50_apply]
  have hix : idx_main_v50 (ix4 b h w (0 : Fin 1)) = ix3 b h w := funext fun a => by
    match a with
    | ⟨0, _⟩ => rfl
    | ⟨1, _⟩ => rfl
    | ⟨2, _⟩ => rfl
  rw [hix]
  simp only [val_main_v39_apply, val_main_v40_apply, val_main_v41_apply, val_main_v42_apply, val_main_v43_apply, val_main_v44_apply, val_main_v45_apply, val_main_v46_apply, val_main_v47_apply, val_main_v48_apply, val_main_v49_apply, val_main_v57_apply, val_main_v58_apply, val_main_v59_apply, val_main_v60_apply, val_main_v61_apply, val_main_v62_apply, val_main_v63_apply, val_main_v64_apply, val_main_v65_apply, val_main_v66_apply, val_main_v67_apply, val_main_v74_apply, val_main_v75_apply, val_main_v76_apply, val_main_v77_apply, val_main_v78_apply, val_main_v79_apply, val_main_v80_apply, val_main_v81_apply, val_main_v82_apply, val_main_v83_apply, val_main_v84_apply, val_main_v92_apply, val_main_v93_apply, val_main_v94_apply, val_main_v95_apply, val_main_v96_apply, val_main_v97_apply, val_main_v98_apply, val_main_v99_apply, val_main_v100_apply, val_main_v101_apply, val_main_v102_apply, val_main_v109_apply, val_main_v110_apply, val_main_v111_apply, val_main_v112_apply, val_main_v113_apply, val_main_v114_apply, val_main_v115_apply, val_main_v116_apply, val_main_v117_apply, val_main_v118_apply, val_main_v119_apply, val_main_v127_apply, val_main_v128_apply, val_main_v129_apply, val_main_v130_apply, val_main_v131_apply, val_main_v132_apply, val_main_v133_apply, val_main_v134_apply, val_main_v135_apply, val_main_v136_apply, val_main_v137_apply, val_main_v144_apply, val_main_v145_apply, val_main_v146_apply, val_main_v147_apply, val_main_v148_apply, val_main_v149_apply, val_main_v150_apply, val_main_v151_apply, val_main_v152_apply, val_main_v153_apply, val_main_v154_apply, val_main_v162_apply, val_main_v163_apply, val_main_v164_apply, val_main_v165_apply, val_main_v166_apply, val_main_v167_apply, val_main_v168_apply, val_main_v169_apply, val_main_v170_apply, val_main_v171_apply, val_main_v172_apply, val_main_c_11_apply, val_main_c_12_apply, val_main_c_13_apply, val_main_c_14_apply, val_main_c_16_apply, val_main_c_17_apply, val_main_c_18_apply, val_main_c_19_apply, val_main_c_20_apply, val_main_c_21_apply, val_main_c_22_apply, val_main_c_23_apply, val_main_c_25_apply, val_main_c_26_apply, val_main_c_27_apply, val_main_c_28_apply, val_main_c_29_apply, val_main_c_30_apply, val_main_c_31_apply, val_main_c_32_apply, val_main_c_34_apply, val_main_c_35_apply, val_main_c_36_apply, val_main_c_37_apply, val_main_c_38_apply, val_main_c_39_apply, val_main_c_40_apply, val_main_c_41_apply, val_main_c_43_apply, val_main_c_44_apply, val_main_c_45_apply, val_main_c_46_apply]
  rw [lo_i x b h w, lo_j x b h w, lo_k x b h w]

/-- The look-up of stage 69: the lower blue, lower green and upper red grid point. -/
theorem look_69 : val_main_v69 (F := Ideal) x L (ix4 c b h w) = L (ix4 c (cell (coord (x (ix4 b (2 : Fin 3) h w)))) (cell (coord (x (ix4 b (1 : Fin 3) h w)))) (cellUp (coord (x (ix4 b (0 : Fin 3) h w))))) := by
  unfold val_main_v69
  refine gather_at L (val_main_v68 (F := Ideal) x) c b h w _ _ _ ?_
  rw [val_main_v68_apply]
  have hix : idx_main_v68 (ix4 b h w (0 : Fin 1)) = ix3 b h w := funext fun a => by
    match a with
    | ⟨0, _⟩ => rfl
    | ⟨1, _⟩ => rfl
    | ⟨2, _⟩ => rfl
  rw [hix]
  simp only [val_main_v39_apply, val_main_v40_apply, val_main_v41_apply, val_main_v42_apply, val_main_v43_apply, val_main_v44_apply, val_main_v45_apply, val_main_v46_apply, val_main_v47_apply, val_main_v48_apply, val_main_v49_apply, val_main_v57_apply, val_main_v58_apply, val_main_v59_apply, val_main_v60_apply, val_main_v61_apply, val_main_v62_apply, val_main_v63_apply, val_main_v64_apply, val_main_v65_apply, val_main_v66_apply, val_main_v67_apply, val_main_v74_apply, val_main_v75_apply, val_main_v76_apply, val_main_v77_apply, val_main_v78_apply, val_main_v79_apply, val_main_v80_apply, val_main_v81_apply, val_main_v82_apply, val_main_v83_apply, val_main_v84_apply, val_main_v92_apply, val_main_v93_apply, val_main_v94_apply, val_main_v95_apply, val_main_v96_apply, val_main_v97_apply, val_main_v98_apply, val_main_v99_apply, val_main_v100_apply, val_main_v101_apply, val_main_v102_apply, val_main_v109_apply, val_main_v110_apply, val_main_v111_apply, val_main_v112_apply, val_main_v113_apply, val_main_v114_apply, val_main_v115_apply, val_main_v116_apply, val_main_v117_apply, val_main_v118_apply, val_main_v119_apply, val_main_v127_apply, val_main_v128_apply, val_main_v129_apply, val_main_v130_apply, val_main_v131_apply, val_main_v132_apply, val_main_v133_apply, val_main_v134_apply, val_main_v135_apply, val_main_v136_apply, val_main_v137_apply, val_main_v144_apply, val_main_v145_apply, val_main_v146_apply, val_main_v147_apply, val_main_v148_apply, val_main_v149_apply, val_main_v150_apply, val_main_v151_apply, val_main_v152_apply, val_main_v153_apply, val_main_v154_apply, val_main_v162_apply, val_main_v163_apply, val_main_v164_apply, val_main_v165_apply, val_main_v166_apply, val_main_v167_apply, val_main_v168_apply, val_main_v169_apply, val_main_v170_apply, val_main_v171_apply, val_main_v172_apply, val_main_c_11_apply, val_main_c_12_apply, val_main_c_13_apply, val_main_c_14_apply, val_main_c_16_apply, val_main_c_17_apply, val_main_c_18_apply, val_main_c_19_apply, val_main_c_20_apply, val_main_c_21_apply, val_main_c_22_apply, val_main_c_23_apply, val_main_c_25_apply, val_main_c_26_apply, val_main_c_27_apply, val_main_c_28_apply, val_main_c_29_apply, val_main_c_30_apply, val_main_c_31_apply, val_main_c_32_apply, val_main_c_34_apply, val_main_c_35_apply, val_main_c_36_apply, val_main_c_37_apply, val_main_c_38_apply, val_main_c_39_apply, val_main_c_40_apply, val_main_c_41_apply, val_main_c_43_apply, val_main_c_44_apply, val_main_c_45_apply, val_main_c_46_apply]
  rw [lo_i x b h w, lo_j x b h w, hi_k x b h w]

/-- The look-up of stage 86: the lower blue, upper green and lower red grid point. -/
theorem look_86 : val_main_v86 (F := Ideal) x L (ix4 c b h w) = L (ix4 c (cell (coord (x (ix4 b (2 : Fin 3) h w)))) (cellUp (coord (x (ix4 b (1 : Fin 3) h w)))) (cell (coord (x (ix4 b (0 : Fin 3) h w))))) := by
  unfold val_main_v86
  refine gather_at L (val_main_v85 (F := Ideal) x) c b h w _ _ _ ?_
  rw [val_main_v85_apply]
  have hix : idx_main_v85 (ix4 b h w (0 : Fin 1)) = ix3 b h w := funext fun a => by
    match a with
    | ⟨0, _⟩ => rfl
    | ⟨1, _⟩ => rfl
    | ⟨2, _⟩ => rfl
  rw [hix]
  simp only [val_main_v39_apply, val_main_v40_apply, val_main_v41_apply, val_main_v42_apply, val_main_v43_apply, val_main_v44_apply, val_main_v45_apply, val_main_v46_apply, val_main_v47_apply, val_main_v48_apply, val_main_v49_apply, val_main_v57_apply, val_main_v58_apply, val_main_v59_apply, val_main_v60_apply, val_main_v61_apply, val_main_v62_apply, val_main_v63_apply, val_main_v64_apply, val_main_v65_apply, val_main_v66_apply, val_main_v67_apply, val_main_v74_apply, val_main_v75_apply, val_main_v76_apply, val_main_v77_apply, val_main_v78_apply, val_main_v79_apply, val_main_v80_apply, val_main_v81_apply, val_main_v82_apply, val_main_v83_apply, val_main_v84_apply, val_main_v92_apply, val_main_v93_apply, val_main_v94_apply, val_main_v95_apply, val_main_v96_apply, val_main_v97_apply, val_main_v98_apply, val_main_v99_apply, val_main_v100_apply, val_main_v101_apply, val_main_v102_apply, val_main_v109_apply, val_main_v110_apply, val_main_v111_apply, val_main_v112_apply, val_main_v113_apply, val_main_v114_apply, val_main_v115_apply, val_main_v116_apply, val_main_v117_apply, val_main_v118_apply, val_main_v119_apply, val_main_v127_apply, val_main_v128_apply, val_main_v129_apply, val_main_v130_apply, val_main_v131_apply, val_main_v132_apply, val_main_v133_apply, val_main_v134_apply, val_main_v135_apply, val_main_v136_apply, val_main_v137_apply, val_main_v144_apply, val_main_v145_apply, val_main_v146_apply, val_main_v147_apply, val_main_v148_apply, val_main_v149_apply, val_main_v150_apply, val_main_v151_apply, val_main_v152_apply, val_main_v153_apply, val_main_v154_apply, val_main_v162_apply, val_main_v163_apply, val_main_v164_apply, val_main_v165_apply, val_main_v166_apply, val_main_v167_apply, val_main_v168_apply, val_main_v169_apply, val_main_v170_apply, val_main_v171_apply, val_main_v172_apply, val_main_c_11_apply, val_main_c_12_apply, val_main_c_13_apply, val_main_c_14_apply, val_main_c_16_apply, val_main_c_17_apply, val_main_c_18_apply, val_main_c_19_apply, val_main_c_20_apply, val_main_c_21_apply, val_main_c_22_apply, val_main_c_23_apply, val_main_c_25_apply, val_main_c_26_apply, val_main_c_27_apply, val_main_c_28_apply, val_main_c_29_apply, val_main_c_30_apply, val_main_c_31_apply, val_main_c_32_apply, val_main_c_34_apply, val_main_c_35_apply, val_main_c_36_apply, val_main_c_37_apply, val_main_c_38_apply, val_main_c_39_apply, val_main_c_40_apply, val_main_c_41_apply, val_main_c_43_apply, val_main_c_44_apply, val_main_c_45_apply, val_main_c_46_apply]
  rw [lo_i x b h w, hi_j x b h w, lo_k x b h w]

/-- The look-up of stage 104: the lower blue, upper green and upper red grid point. -/
theorem look_104 : val_main_v104 (F := Ideal) x L (ix4 c b h w) = L (ix4 c (cell (coord (x (ix4 b (2 : Fin 3) h w)))) (cellUp (coord (x (ix4 b (1 : Fin 3) h w)))) (cellUp (coord (x (ix4 b (0 : Fin 3) h w))))) := by
  unfold val_main_v104
  refine gather_at L (val_main_v103 (F := Ideal) x) c b h w _ _ _ ?_
  rw [val_main_v103_apply]
  have hix : idx_main_v103 (ix4 b h w (0 : Fin 1)) = ix3 b h w := funext fun a => by
    match a with
    | ⟨0, _⟩ => rfl
    | ⟨1, _⟩ => rfl
    | ⟨2, _⟩ => rfl
  rw [hix]
  simp only [val_main_v39_apply, val_main_v40_apply, val_main_v41_apply, val_main_v42_apply, val_main_v43_apply, val_main_v44_apply, val_main_v45_apply, val_main_v46_apply, val_main_v47_apply, val_main_v48_apply, val_main_v49_apply, val_main_v57_apply, val_main_v58_apply, val_main_v59_apply, val_main_v60_apply, val_main_v61_apply, val_main_v62_apply, val_main_v63_apply, val_main_v64_apply, val_main_v65_apply, val_main_v66_apply, val_main_v67_apply, val_main_v74_apply, val_main_v75_apply, val_main_v76_apply, val_main_v77_apply, val_main_v78_apply, val_main_v79_apply, val_main_v80_apply, val_main_v81_apply, val_main_v82_apply, val_main_v83_apply, val_main_v84_apply, val_main_v92_apply, val_main_v93_apply, val_main_v94_apply, val_main_v95_apply, val_main_v96_apply, val_main_v97_apply, val_main_v98_apply, val_main_v99_apply, val_main_v100_apply, val_main_v101_apply, val_main_v102_apply, val_main_v109_apply, val_main_v110_apply, val_main_v111_apply, val_main_v112_apply, val_main_v113_apply, val_main_v114_apply, val_main_v115_apply, val_main_v116_apply, val_main_v117_apply, val_main_v118_apply, val_main_v119_apply, val_main_v127_apply, val_main_v128_apply, val_main_v129_apply, val_main_v130_apply, val_main_v131_apply, val_main_v132_apply, val_main_v133_apply, val_main_v134_apply, val_main_v135_apply, val_main_v136_apply, val_main_v137_apply, val_main_v144_apply, val_main_v145_apply, val_main_v146_apply, val_main_v147_apply, val_main_v148_apply, val_main_v149_apply, val_main_v150_apply, val_main_v151_apply, val_main_v152_apply, val_main_v153_apply, val_main_v154_apply, val_main_v162_apply, val_main_v163_apply, val_main_v164_apply, val_main_v165_apply, val_main_v166_apply, val_main_v167_apply, val_main_v168_apply, val_main_v169_apply, val_main_v170_apply, val_main_v171_apply, val_main_v172_apply, val_main_c_11_apply, val_main_c_12_apply, val_main_c_13_apply, val_main_c_14_apply, val_main_c_16_apply, val_main_c_17_apply, val_main_c_18_apply, val_main_c_19_apply, val_main_c_20_apply, val_main_c_21_apply, val_main_c_22_apply, val_main_c_23_apply, val_main_c_25_apply, val_main_c_26_apply, val_main_c_27_apply, val_main_c_28_apply, val_main_c_29_apply, val_main_c_30_apply, val_main_c_31_apply, val_main_c_32_apply, val_main_c_34_apply, val_main_c_35_apply, val_main_c_36_apply, val_main_c_37_apply, val_main_c_38_apply, val_main_c_39_apply, val_main_c_40_apply, val_main_c_41_apply, val_main_c_43_apply, val_main_c_44_apply, val_main_c_45_apply, val_main_c_46_apply]
  rw [lo_i x b h w, hi_j x b h w, hi_k x b h w]

/-- The look-up of stage 121: the upper blue, lower green and lower red grid point. -/
theorem look_121 : val_main_v121 (F := Ideal) x L (ix4 c b h w) = L (ix4 c (cellUp (coord (x (ix4 b (2 : Fin 3) h w)))) (cell (coord (x (ix4 b (1 : Fin 3) h w)))) (cell (coord (x (ix4 b (0 : Fin 3) h w))))) := by
  unfold val_main_v121
  refine gather_at L (val_main_v120 (F := Ideal) x) c b h w _ _ _ ?_
  rw [val_main_v120_apply]
  have hix : idx_main_v120 (ix4 b h w (0 : Fin 1)) = ix3 b h w := funext fun a => by
    match a with
    | ⟨0, _⟩ => rfl
    | ⟨1, _⟩ => rfl
    | ⟨2, _⟩ => rfl
  rw [hix]
  simp only [val_main_v39_apply, val_main_v40_apply, val_main_v41_apply, val_main_v42_apply, val_main_v43_apply, val_main_v44_apply, val_main_v45_apply, val_main_v46_apply, val_main_v47_apply, val_main_v48_apply, val_main_v49_apply, val_main_v57_apply, val_main_v58_apply, val_main_v59_apply, val_main_v60_apply, val_main_v61_apply, val_main_v62_apply, val_main_v63_apply, val_main_v64_apply, val_main_v65_apply, val_main_v66_apply, val_main_v67_apply, val_main_v74_apply, val_main_v75_apply, val_main_v76_apply, val_main_v77_apply, val_main_v78_apply, val_main_v79_apply, val_main_v80_apply, val_main_v81_apply, val_main_v82_apply, val_main_v83_apply, val_main_v84_apply, val_main_v92_apply, val_main_v93_apply, val_main_v94_apply, val_main_v95_apply, val_main_v96_apply, val_main_v97_apply, val_main_v98_apply, val_main_v99_apply, val_main_v100_apply, val_main_v101_apply, val_main_v102_apply, val_main_v109_apply, val_main_v110_apply, val_main_v111_apply, val_main_v112_apply, val_main_v113_apply, val_main_v114_apply, val_main_v115_apply, val_main_v116_apply, val_main_v117_apply, val_main_v118_apply, val_main_v119_apply, val_main_v127_apply, val_main_v128_apply, val_main_v129_apply, val_main_v130_apply, val_main_v131_apply, val_main_v132_apply, val_main_v133_apply, val_main_v134_apply, val_main_v135_apply, val_main_v136_apply, val_main_v137_apply, val_main_v144_apply, val_main_v145_apply, val_main_v146_apply, val_main_v147_apply, val_main_v148_apply, val_main_v149_apply, val_main_v150_apply, val_main_v151_apply, val_main_v152_apply, val_main_v153_apply, val_main_v154_apply, val_main_v162_apply, val_main_v163_apply, val_main_v164_apply, val_main_v165_apply, val_main_v166_apply, val_main_v167_apply, val_main_v168_apply, val_main_v169_apply, val_main_v170_apply, val_main_v171_apply, val_main_v172_apply, val_main_c_11_apply, val_main_c_12_apply, val_main_c_13_apply, val_main_c_14_apply, val_main_c_16_apply, val_main_c_17_apply, val_main_c_18_apply, val_main_c_19_apply, val_main_c_20_apply, val_main_c_21_apply, val_main_c_22_apply, val_main_c_23_apply, val_main_c_25_apply, val_main_c_26_apply, val_main_c_27_apply, val_main_c_28_apply, val_main_c_29_apply, val_main_c_30_apply, val_main_c_31_apply, val_main_c_32_apply, val_main_c_34_apply, val_main_c_35_apply, val_main_c_36_apply, val_main_c_37_apply, val_main_c_38_apply, val_main_c_39_apply, val_main_c_40_apply, val_main_c_41_apply, val_main_c_43_apply, val_main_c_44_apply, val_main_c_45_apply, val_main_c_46_apply]
  rw [hi_i x b h w, lo_j x b h w, lo_k x b h w]

/-- The look-up of stage 139: the upper blue, lower green and upper red grid point. -/
theorem look_139 : val_main_v139 (F := Ideal) x L (ix4 c b h w) = L (ix4 c (cellUp (coord (x (ix4 b (2 : Fin 3) h w)))) (cell (coord (x (ix4 b (1 : Fin 3) h w)))) (cellUp (coord (x (ix4 b (0 : Fin 3) h w))))) := by
  unfold val_main_v139
  refine gather_at L (val_main_v138 (F := Ideal) x) c b h w _ _ _ ?_
  rw [val_main_v138_apply]
  have hix : idx_main_v138 (ix4 b h w (0 : Fin 1)) = ix3 b h w := funext fun a => by
    match a with
    | ⟨0, _⟩ => rfl
    | ⟨1, _⟩ => rfl
    | ⟨2, _⟩ => rfl
  rw [hix]
  simp only [val_main_v39_apply, val_main_v40_apply, val_main_v41_apply, val_main_v42_apply, val_main_v43_apply, val_main_v44_apply, val_main_v45_apply, val_main_v46_apply, val_main_v47_apply, val_main_v48_apply, val_main_v49_apply, val_main_v57_apply, val_main_v58_apply, val_main_v59_apply, val_main_v60_apply, val_main_v61_apply, val_main_v62_apply, val_main_v63_apply, val_main_v64_apply, val_main_v65_apply, val_main_v66_apply, val_main_v67_apply, val_main_v74_apply, val_main_v75_apply, val_main_v76_apply, val_main_v77_apply, val_main_v78_apply, val_main_v79_apply, val_main_v80_apply, val_main_v81_apply, val_main_v82_apply, val_main_v83_apply, val_main_v84_apply, val_main_v92_apply, val_main_v93_apply, val_main_v94_apply, val_main_v95_apply, val_main_v96_apply, val_main_v97_apply, val_main_v98_apply, val_main_v99_apply, val_main_v100_apply, val_main_v101_apply, val_main_v102_apply, val_main_v109_apply, val_main_v110_apply, val_main_v111_apply, val_main_v112_apply, val_main_v113_apply, val_main_v114_apply, val_main_v115_apply, val_main_v116_apply, val_main_v117_apply, val_main_v118_apply, val_main_v119_apply, val_main_v127_apply, val_main_v128_apply, val_main_v129_apply, val_main_v130_apply, val_main_v131_apply, val_main_v132_apply, val_main_v133_apply, val_main_v134_apply, val_main_v135_apply, val_main_v136_apply, val_main_v137_apply, val_main_v144_apply, val_main_v145_apply, val_main_v146_apply, val_main_v147_apply, val_main_v148_apply, val_main_v149_apply, val_main_v150_apply, val_main_v151_apply, val_main_v152_apply, val_main_v153_apply, val_main_v154_apply, val_main_v162_apply, val_main_v163_apply, val_main_v164_apply, val_main_v165_apply, val_main_v166_apply, val_main_v167_apply, val_main_v168_apply, val_main_v169_apply, val_main_v170_apply, val_main_v171_apply, val_main_v172_apply, val_main_c_11_apply, val_main_c_12_apply, val_main_c_13_apply, val_main_c_14_apply, val_main_c_16_apply, val_main_c_17_apply, val_main_c_18_apply, val_main_c_19_apply, val_main_c_20_apply, val_main_c_21_apply, val_main_c_22_apply, val_main_c_23_apply, val_main_c_25_apply, val_main_c_26_apply, val_main_c_27_apply, val_main_c_28_apply, val_main_c_29_apply, val_main_c_30_apply, val_main_c_31_apply, val_main_c_32_apply, val_main_c_34_apply, val_main_c_35_apply, val_main_c_36_apply, val_main_c_37_apply, val_main_c_38_apply, val_main_c_39_apply, val_main_c_40_apply, val_main_c_41_apply, val_main_c_43_apply, val_main_c_44_apply, val_main_c_45_apply, val_main_c_46_apply]
  rw [hi_i x b h w, lo_j x b h w, hi_k x b h w]

/-- The look-up of stage 156: the upper blue, upper green and lower red grid point. -/
theorem look_156 : val_main_v156 (F := Ideal) x L (ix4 c b h w) = L (ix4 c (cellUp (coord (x (ix4 b (2 : Fin 3) h w)))) (cellUp (coord (x (ix4 b (1 : Fin 3) h w)))) (cell (coord (x (ix4 b (0 : Fin 3) h w))))) := by
  unfold val_main_v156
  refine gather_at L (val_main_v155 (F := Ideal) x) c b h w _ _ _ ?_
  rw [val_main_v155_apply]
  have hix : idx_main_v155 (ix4 b h w (0 : Fin 1)) = ix3 b h w := funext fun a => by
    match a with
    | ⟨0, _⟩ => rfl
    | ⟨1, _⟩ => rfl
    | ⟨2, _⟩ => rfl
  rw [hix]
  simp only [val_main_v39_apply, val_main_v40_apply, val_main_v41_apply, val_main_v42_apply, val_main_v43_apply, val_main_v44_apply, val_main_v45_apply, val_main_v46_apply, val_main_v47_apply, val_main_v48_apply, val_main_v49_apply, val_main_v57_apply, val_main_v58_apply, val_main_v59_apply, val_main_v60_apply, val_main_v61_apply, val_main_v62_apply, val_main_v63_apply, val_main_v64_apply, val_main_v65_apply, val_main_v66_apply, val_main_v67_apply, val_main_v74_apply, val_main_v75_apply, val_main_v76_apply, val_main_v77_apply, val_main_v78_apply, val_main_v79_apply, val_main_v80_apply, val_main_v81_apply, val_main_v82_apply, val_main_v83_apply, val_main_v84_apply, val_main_v92_apply, val_main_v93_apply, val_main_v94_apply, val_main_v95_apply, val_main_v96_apply, val_main_v97_apply, val_main_v98_apply, val_main_v99_apply, val_main_v100_apply, val_main_v101_apply, val_main_v102_apply, val_main_v109_apply, val_main_v110_apply, val_main_v111_apply, val_main_v112_apply, val_main_v113_apply, val_main_v114_apply, val_main_v115_apply, val_main_v116_apply, val_main_v117_apply, val_main_v118_apply, val_main_v119_apply, val_main_v127_apply, val_main_v128_apply, val_main_v129_apply, val_main_v130_apply, val_main_v131_apply, val_main_v132_apply, val_main_v133_apply, val_main_v134_apply, val_main_v135_apply, val_main_v136_apply, val_main_v137_apply, val_main_v144_apply, val_main_v145_apply, val_main_v146_apply, val_main_v147_apply, val_main_v148_apply, val_main_v149_apply, val_main_v150_apply, val_main_v151_apply, val_main_v152_apply, val_main_v153_apply, val_main_v154_apply, val_main_v162_apply, val_main_v163_apply, val_main_v164_apply, val_main_v165_apply, val_main_v166_apply, val_main_v167_apply, val_main_v168_apply, val_main_v169_apply, val_main_v170_apply, val_main_v171_apply, val_main_v172_apply, val_main_c_11_apply, val_main_c_12_apply, val_main_c_13_apply, val_main_c_14_apply, val_main_c_16_apply, val_main_c_17_apply, val_main_c_18_apply, val_main_c_19_apply, val_main_c_20_apply, val_main_c_21_apply, val_main_c_22_apply, val_main_c_23_apply, val_main_c_25_apply, val_main_c_26_apply, val_main_c_27_apply, val_main_c_28_apply, val_main_c_29_apply, val_main_c_30_apply, val_main_c_31_apply, val_main_c_32_apply, val_main_c_34_apply, val_main_c_35_apply, val_main_c_36_apply, val_main_c_37_apply, val_main_c_38_apply, val_main_c_39_apply, val_main_c_40_apply, val_main_c_41_apply, val_main_c_43_apply, val_main_c_44_apply, val_main_c_45_apply, val_main_c_46_apply]
  rw [hi_i x b h w, hi_j x b h w, lo_k x b h w]

/-- The look-up of stage 174: the upper blue, upper green and upper red grid point. -/
theorem look_174 : val_main_v174 (F := Ideal) x L (ix4 c b h w) = L (ix4 c (cellUp (coord (x (ix4 b (2 : Fin 3) h w)))) (cellUp (coord (x (ix4 b (1 : Fin 3) h w)))) (cellUp (coord (x (ix4 b (0 : Fin 3) h w))))) := by
  unfold val_main_v174
  refine gather_at L (val_main_v173 (F := Ideal) x) c b h w _ _ _ ?_
  rw [val_main_v173_apply]
  have hix : idx_main_v173 (ix4 b h w (0 : Fin 1)) = ix3 b h w := funext fun a => by
    match a with
    | ⟨0, _⟩ => rfl
    | ⟨1, _⟩ => rfl
    | ⟨2, _⟩ => rfl
  rw [hix]
  simp only [val_main_v39_apply, val_main_v40_apply, val_main_v41_apply, val_main_v42_apply, val_main_v43_apply, val_main_v44_apply, val_main_v45_apply, val_main_v46_apply, val_main_v47_apply, val_main_v48_apply, val_main_v49_apply, val_main_v57_apply, val_main_v58_apply, val_main_v59_apply, val_main_v60_apply, val_main_v61_apply, val_main_v62_apply, val_main_v63_apply, val_main_v64_apply, val_main_v65_apply, val_main_v66_apply, val_main_v67_apply, val_main_v74_apply, val_main_v75_apply, val_main_v76_apply, val_main_v77_apply, val_main_v78_apply, val_main_v79_apply, val_main_v80_apply, val_main_v81_apply, val_main_v82_apply, val_main_v83_apply, val_main_v84_apply, val_main_v92_apply, val_main_v93_apply, val_main_v94_apply, val_main_v95_apply, val_main_v96_apply, val_main_v97_apply, val_main_v98_apply, val_main_v99_apply, val_main_v100_apply, val_main_v101_apply, val_main_v102_apply, val_main_v109_apply, val_main_v110_apply, val_main_v111_apply, val_main_v112_apply, val_main_v113_apply, val_main_v114_apply, val_main_v115_apply, val_main_v116_apply, val_main_v117_apply, val_main_v118_apply, val_main_v119_apply, val_main_v127_apply, val_main_v128_apply, val_main_v129_apply, val_main_v130_apply, val_main_v131_apply, val_main_v132_apply, val_main_v133_apply, val_main_v134_apply, val_main_v135_apply, val_main_v136_apply, val_main_v137_apply, val_main_v144_apply, val_main_v145_apply, val_main_v146_apply, val_main_v147_apply, val_main_v148_apply, val_main_v149_apply, val_main_v150_apply, val_main_v151_apply, val_main_v152_apply, val_main_v153_apply, val_main_v154_apply, val_main_v162_apply, val_main_v163_apply, val_main_v164_apply, val_main_v165_apply, val_main_v166_apply, val_main_v167_apply, val_main_v168_apply, val_main_v169_apply, val_main_v170_apply, val_main_v171_apply, val_main_v172_apply, val_main_c_11_apply, val_main_c_12_apply, val_main_c_13_apply, val_main_c_14_apply, val_main_c_16_apply, val_main_c_17_apply, val_main_c_18_apply, val_main_c_19_apply, val_main_c_20_apply, val_main_c_21_apply, val_main_c_22_apply, val_main_c_23_apply, val_main_c_25_apply, val_main_c_26_apply, val_main_c_27_apply, val_main_c_28_apply, val_main_c_29_apply, val_main_c_30_apply, val_main_c_31_apply, val_main_c_32_apply, val_main_c_34_apply, val_main_c_35_apply, val_main_c_36_apply, val_main_c_37_apply, val_main_c_38_apply, val_main_c_39_apply, val_main_c_40_apply, val_main_c_41_apply, val_main_c_43_apply, val_main_c_44_apply, val_main_c_45_apply, val_main_c_46_apply]
  rw [hi_i x b h w, hi_j x b h w, hi_k x b h w]

/-- The weight of stage 55 at the pixel. -/
theorem weight_55 : val_main_v55 (F := Ideal) x (ix4 c b h w) = cofrac (coord (x (ix4 b (0 : Fin 3) h w))) := by
  unfold val_main_v55 val_main_v54
  exact (bcast_pair _ _ _ c b h w).trans (cofrac_53 x b h w)

/-- The weight of stage 71 at the pixel. -/
theorem weight_71 : val_main_v71 (F := Ideal) x (ix4 c b h w) = frac (coord (x (ix4 b (0 : Fin 3) h w))) := by
  unfold val_main_v71 val_main_v70
  exact (bcast_pair _ _ _ c b h w).trans (frac_k x b h w)

/-- The weight of stage 90 at the pixel. -/
theorem weight_90 : val_main_v90 (F := Ideal) x (ix4 c b h w) = cofrac (coord (x (ix4 b (0 : Fin 3) h w))) := by
  unfold val_main_v90 val_main_v89
  exact (bcast_pair _ _ _ c b h w).trans (cofrac_88 x b h w)

/-- The weight of stage 106 at the pixel. -/
theorem weight_106 : val_main_v106 (F := Ideal) x (ix4 c b h w) = frac (coord (x (ix4 b (0 : Fin 3) h w))) := by
  unfold val_main_v106 val_main_v105
  exact (bcast_pair _ _ _ c b h w).trans (frac_k x b h w)

/-- The weight of stage 125 at the pixel. -/
theorem weight_125 : val_main_v125 (F := Ideal) x (ix4 c b h w) = cofrac (coord (x (ix4 b (0 : Fin 3) h w))) := by
  unfold val_main_v125 val_main_v124
  exact (bcast_pair _ _ _ c b h w).trans (cofrac_123 x b h w)

/-- The weight of stage 141 at the pixel. -/
theorem weight_141 : val_main_v141 (F := Ideal) x (ix4 c b h w) = frac (coord (x (ix4 b (0 : Fin 3) h w))) := by
  unfold val_main_v141 val_main_v140
  exact (bcast_pair _ _ _ c b h w).trans (frac_k x b h w)

/-- The weight of stage 160 at the pixel. -/
theorem weight_160 : val_main_v160 (F := Ideal) x (ix4 c b h w) = cofrac (coord (x (ix4 b (0 : Fin 3) h w))) := by
  unfold val_main_v160 val_main_v159
  exact (bcast_pair _ _ _ c b h w).trans (cofrac_158 x b h w)

/-- The weight of stage 176 at the pixel. -/
theorem weight_176 : val_main_v176 (F := Ideal) x (ix4 c b h w) = frac (coord (x (ix4 b (0 : Fin 3) h w))) := by
  unfold val_main_v176 val_main_v175
  exact (bcast_pair _ _ _ c b h w).trans (frac_k x b h w)

/-- The weight of stage 182 at the pixel. -/
theorem weight_182 : val_main_v182 (F := Ideal) x (ix4 c b h w) = cofrac (coord (x (ix4 b (1 : Fin 3) h w))) := by
  unfold val_main_v182 val_main_v181
  exact (bcast_pair _ _ _ c b h w).trans (cofrac_180 x b h w)

/-- The weight of stage 185 at the pixel. -/
theorem weight_185 : val_main_v185 (F := Ideal) x (ix4 c b h w) = frac (coord (x (ix4 b (1 : Fin 3) h w))) := by
  unfold val_main_v185 val_main_v184
  exact (bcast_pair _ _ _ c b h w).trans (frac_j x b h w)

/-- The weight of stage 191 at the pixel. -/
theorem weight_191 : val_main_v191 (F := Ideal) x (ix4 c b h w) = cofrac (coord (x (ix4 b (2 : Fin 3) h w))) := by
  unfold val_main_v191 val_main_v190
  exact (bcast_pair _ _ _ c b h w).trans (cofrac_189 x b h w)

/-- The weight of stage 196 at the pixel. -/
theorem weight_196 : val_main_v196 (F := Ideal) x (ix4 c b h w) = cofrac (coord (x (ix4 b (1 : Fin 3) h w))) := by
  unfold val_main_v196 val_main_v195
  exact (bcast_pair _ _ _ c b h w).trans (cofrac_194 x b h w)

/-- The weight of stage 199 at the pixel. -/
theorem weight_199 : val_main_v199 (F := Ideal) x (ix4 c b h w) = frac (coord (x (ix4 b (1 : Fin 3) h w))) := by
  unfold val_main_v199 val_main_v198
  exact (bcast_pair _ _ _ c b h w).trans (frac_j x b h w)

/-- The weight of stage 203 at the pixel. -/
theorem weight_203 : val_main_v203 (F := Ideal) x (ix4 c b h w) = frac (coord (x (ix4 b (2 : Fin 3) h w))) := by
  unfold val_main_v203 val_main_v202
  exact (bcast_pair _ _ _ c b h w).trans (frac_i x b h w)

/-- THE REFERENCE'S VALUE: its result at `(b, c, h, w)` is the common value. -/
theorem ref_value : val_main_v206 (F := Ideal) x L (ix4 b c h w) = G x L (ix4 b c h w) := by
  have hix : idx_main_v206 (ix4 b c h w) = ix4 c b h w := funext fun a => by
    match a with
    | ⟨0, _⟩ => rfl
    | ⟨1, _⟩ => rfl
    | ⟨2, _⟩ => rfl
    | ⟨3, _⟩ => rfl
  rw [val_main_v206_apply, hix, G_apply]
  simp only [val_main_v56_apply, val_main_v72_apply, val_main_v73_apply, val_main_v91_apply, val_main_v107_apply, val_main_v108_apply, val_main_v126_apply, val_main_v142_apply, val_main_v143_apply, val_main_v161_apply, val_main_v177_apply, val_main_v178_apply, val_main_v183_apply, val_main_v186_apply, val_main_v187_apply, val_main_v192_apply, val_main_v197_apply, val_main_v200_apply, val_main_v201_apply, val_main_v204_apply, val_main_v205_apply]
  rw [look_51 x L c b h w, look_69 x L c b h w, look_86 x L c b h w, look_104 x L c b h w, look_121 x L c b h w, look_139 x L c b h w, look_156 x L c b h w, look_174 x L c b h w,
    weight_55 x c b h w, weight_71 x c b h w, weight_90 x c b h w, weight_106 x c b h w, weight_125 x c b h w, weight_141 x c b h w, weight_160 x c b h w, weight_176 x c b h w, weight_182 x c b h w, weight_185 x c b h w, weight_191 x c b h w, weight_196 x c b h w, weight_199 x c b h w, weight_203 x c b h w]
  rfl

/-- … as whole arrays. -/
theorem ref_value_eq : val_main_v206 (F := Ideal) x L = G x L := by
  funext i
  rw [eq_ix4 i]
  exact ref_value x L (i 1) (i 0) (i 2) (i 3)

end Cert.RefValue

end
-- ==== Proof.Finite.lean ====
/-
  What the precondition gives: every table entry is a real number.

  The precondition computes, for each argument array, "every entry has absolute value below +∞" and requires both to
  hold. For the table this says that no entry is +∞ or -∞: the absolute value of an infinity is +∞, which is not
  below +∞.
-/
import proofs.«169817_j28467043237891_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

variable [Cert.Pre_finite_inputs.Facts]

instance : Subsingleton S_.Idx := ⟨fun a b => funext fun d => d.elim0⟩

/-- An extended real whose absolute value is below the pattern of +∞ is a real number. -/
theorem finite_of_abs_lt (a : EReal)
    (h : Ideal.cmp .olt (max a (-a)) (Ideal.ofBits .f32 0x7F800000#32) = 1#1) : a ≠ ⊤ ∧ a ≠ ⊥ := by
  have hinf : Ideal.ofBits .f32 0x7F800000#32 = ⊤ := by simp [Ideal.ofBits, Ideal.ieee]
  rw [hinf] at h
  induction a using EReal.rec with
  | bot => simp [Ideal.cmp] at h
  | top => simp [Ideal.cmp] at h
  | coe r => exact ⟨EReal.coe_ne_top r, EReal.coe_ne_bot r⟩

/-- Under the precondition every entry of the table is a real number. -/
theorem table_finite (x : FVec Ideal S8x3x1024x1024 .f32) (L : FVec Ideal S3x33x33x33 .f32)
    (h : Cert.Pre_finite_inputs.fn (F := Ideal) x L = fun _ => 1#1) (i : S3x33x33x33.Idx) : L i ≠ ⊤ ∧ L i ≠ ⊥ := by
  have h0 := congrFun h ix0
  dsimp only [Cert.Pre_finite_inputs.fn] at h0
  obtain ⟨-, h2⟩ := IntOp.andi_eq_one.1 h0
  have h3 := Host.reduce_andi_all _ _ _ _ _ h2 i
  exact finite_of_abs_lt (L i) h3

end Cert.Finite

end
-- ==== Proof.lean ====
/-
  Trilinear look-up in a 33 × 33 × 33 colour table: a one-hot matrix product against an eight-corner gather.

  Both programs map each pixel's three colour values to grid coordinates clipped to [0, 32], take the floor and the
  fractional part of each, and interpolate the table's channel `c` between the two neighbouring grid points on every
  axis. The reference reads the eight corner entries by a gather at a flat index computed on 32-bit words and combines
  them with the weights, innermost axis first. The kernel instead builds, for every axis, the row of 33 weights that is
  zero away from the two neighbours, multiplies the green and red rows into 1089 products, contracts the table against
  them in one matrix product and then against the blue row by a lane sum: the full sum over all 33³ entries. The two
  are the same function because the clipped coordinates are real numbers whose floors convert to words between 0 and
  32 without clamping or wrap-around (so the word comparisons of the kernel and the word index arithmetic of the
  reference select the same grid points), and because over real table entries the full sum collapses to its eight
  non-zero terms by distributivity; the table is real by the precondition. The change of float format of the table and
  of the weight products on the kernel's side is the identity on extended reals.

  The frames of the two kernel programs are the generated ones; the reference's frame is its generated run with the
  result dropped; there is no idealization rewrite to account for.
-/
import proofs.«169817_j28467043237891_2_alg».proof.Defs
import proofs.«169817_j28467043237891_2_alg».proof.Proof.Gen.Kernel
import proofs.«169817_j28467043237891_2_alg».proof.Proof.Gen.Kernel.Skeleton
import proofs.«169817_j28467043237891_2_alg».proof.Proof.Gen.Kernel.Launch
import proofs.«169817_j28467043237891_2_alg».proof.Proof.Gen.Kernel.Points
import proofs.«169817_j28467043237891_2_alg».proof.Proof.Gen.Kernel.Frame
import proofs.«169817_j28467043237891_2_alg».proof.Proof.Gen.KernelIdeal
import proofs.«169817_j28467043237891_2_alg».proof.Proof.Gen.KernelIdeal.Skeleton
import proofs.«169817_j28467043237891_2_alg».proof.Proof.Gen.KernelIdeal.Launch
import proofs.«169817_j28467043237891_2_alg».proof.Proof.Gen.KernelIdeal.Points
import proofs.«169817_j28467043237891_2_alg».proof.Proof.Gen.KernelIdeal.Frame
import proofs.«169817_j28467043237891_2_alg».proof.Proof.Gen.ReferenceIdeal
import proofs.«169817_j28467043237891_2_alg».proof.Proof.Gen.Pre_finite_inputs
import proofs.«169817_j28467043237891_2_alg».proof.Proof.Gen.KernelIdeal.Value
import proofs.«169817_j28467043237891_2_alg».proof.Proof.Gen.ReferenceIdeal.Run
import proofs.«169817_j28467043237891_2_alg».proof.Proof.Gen.ReferenceIdeal.Read
import proofs.«169817_j28467043237891_2_alg».proof.Proof.KerArray
import proofs.«169817_j28467043237891_2_alg».proof.Proof.RefValue
import proofs.«169817_j28467043237891_2_alg».proof.Proof.Finite
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the common value of arguments that agree. -/
theorem algebraic : Cert.algebraic_KernelIdeal_ReferenceIdeal := by
  intro m ρ m' ρ' hpre hagree
  have hfin : ∀ (c : Dev Cert.KernelIdeal.nD) i,
      (m ((c.tc : Thread Cert.KernelIdeal.nD Cert.KernelIdeal.τ).loc Cert.KernelIdeal.main_arg1) : Cert.KernelIdeal.S3x33x33x33.Idx → EReal) i ≠ (⊤ : EReal)
      ∧ (m ((c.tc : Thread Cert.KernelIdeal.nD Cert.KernelIdeal.τ).loc Cert.KernelIdeal.main_arg1) : Cert.KernelIdeal.S3x33x33x33.Idx → EReal) i ≠ (⊥ : EReal) :=
    fun c i => Cert.Finite.table_finite _ _ (hpre c) i
  refine ⟨fun c => Cert.Interp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KerArray.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v206_eq, Cert.RefValue.ref_value_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
